-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1x64 : Shape := ⟨2, ![1, 64]⟩
abbrev S128x128 : Shape := ⟨2, ![128, 128]⟩
abbrev S128 : Shape := ⟨1, ![128]⟩
abbrev S64x128 : Shape := ⟨2, ![64, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg7 : FVec F S128 .f32) (main_arg8 : FVec F S64x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  main_v43

def fn_part1 {F : FTy → Type} [FloatOps F] (main_arg4 : FVec F S128x128 .f32) (main_arg5 : FVec F S128 .f32) (main_arg6 : FVec F S64x128 .f32) (main_arg7 : FVec F S128 .f32) (main_arg8 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S1x64 .f32) (main_arg2 : FVec F S128x128 .f32) (main_arg3 : FVec F S128 .f32) (main_arg4 : FVec F S128x128 .f32) (main_arg5 : FVec F S128 .f32) (main_arg6 : FVec F S64x128 .f32) (main_arg7 : FVec F S128 .f32) (main_arg8 : FVec F S64x128 .f32) (main_arg9 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S1x64 : Shape := ⟨2, ![1, 64]⟩
abbrev S128x128 : Shape := ⟨2, ![128, 128]⟩
abbrev S128 : Shape := ⟨1, ![128]⟩
abbrev S64x128 : Shape := ⟨2, ![64, 128]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩

abbrev nBuf : Space → Nat
  | .hbm => 71
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S1x64, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S64x128, .f32⟩
  | .hbm, ⟨9, _⟩ => ⟨S2x800000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S_, .f32⟩
  | .hbm, ⟨54, _⟩ => ⟨S50000x128, .f32⟩
  | .hbm, ⟨55, _⟩ => ⟨S850000x1, .i32⟩
  | .hbm, ⟨56, _⟩ => ⟨S50000x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S128_S1x128_1 : S128.BroadcastsInDim S1x128 (![1] : Fin 1 → Fin S1x128.rank)
  bcast_S_S1x128 : S_.BroadcastsInDim S1x128 (![] : Fin 0 → Fin S1x128.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S1x64_S64x128_S1x128_1_0_0_1_n_n_wf : DotDims.WF S1x64 S64x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S1x64 : Shape := ⟨2, ![1, 64]⟩
abbrev S128x128 : Shape := ⟨2, ![128, 128]⟩
abbrev S128 : Shape := ⟨1, ![128]⟩
abbrev S64x128 : Shape := ⟨2, ![64, 128]⟩
abbrev S2x800000 : Shape := ⟨2, ![2, 800000]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S1x64, .f32⟩
  | 2 => ⟨S128x128, .f32⟩
  | 3 => ⟨S128, .f32⟩
  | 4 => ⟨S128x128, .f32⟩
  | 5 => ⟨S128, .f32⟩
  | 6 => ⟨S64x128, .f32⟩
  | 7 => ⟨S128, .f32⟩
  | 8 => ⟨S64x128, .f32⟩
  | 9 => ⟨S2x800000, .i32⟩
  | 10 => ⟨S1x800000, .i32⟩
  | 11 => ⟨S800000, .i32⟩
  | 12 => ⟨S1x800000, .i32⟩
  | 13 => ⟨S800000, .i32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S1x128, .f32⟩
  | 26 => ⟨S50000x128, .f32⟩
  | 27 => ⟨S50000, .i32⟩
  | 28 => ⟨S850000, .i32⟩
  | 29 => ⟨S850000, .i32⟩
  | 30 => ⟨S_, .f32⟩
  | 31 => ⟨S850000, .f32⟩
  | 32 => ⟨S_, .f32⟩
  | 33 => ⟨S50000, .f32⟩
  | 34 => ⟨S850000x1, .i32⟩
  | 35 => ⟨S50000, .f32⟩
  | 36 => ⟨S_, .f32⟩
  | 37 => ⟨S50000, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x1, .f32⟩
  | 69 => ⟨S850000x128, .f32⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S_, .f32⟩
  | 80 => ⟨S50000x128, .f32⟩
  | 81 => ⟨S50000x128, .i1⟩
  | 82 => ⟨S_, .f32⟩
  | 83 => ⟨S50000x128, .f32⟩
  | 84 => ⟨S50000x128, .f32⟩
  | 85 => ⟨S50000x128, .f32⟩
  | 86 => ⟨S50000x128, .f32⟩
  | 87 => ⟨S50000, .i32⟩
  | 88 => ⟨S850000, .i32⟩
  | 89 => ⟨S850000, .i32⟩
  | 90 => ⟨S_, .f32⟩
  | 91 => ⟨S850000, .f32⟩
  | 92 => ⟨S_, .f32⟩
  | 93 => ⟨S50000, .f32⟩
  | 94 => ⟨S850000x1, .i32⟩
  | 95 => ⟨S50000, .f32⟩
  | 96 => ⟨S_, .f32⟩
  | 97 => ⟨S50000, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x128, .f32⟩

abbrev hbmTy0_1 (i : Nat) : BufTy := match i % 128 with
  | 0 => ⟨S850000x1, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S50000x128, .f32⟩
  | 9 => ⟨S50000x128, .f32⟩
  | 10 => ⟨S50000x128, .f32⟩
  | 11 => ⟨S50000x128, .f32⟩
  | 12 => ⟨S50000x128, .f32⟩
  | 13 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_c_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_16 : Ref sig .tc := ⟨.hbm, 109, rfl⟩
abbrev main_v75 : Ref sig .tc := ⟨.hbm, 110, rfl⟩
abbrev main_v76 : Ref sig .tc := ⟨.hbm, 111, rfl⟩
abbrev main_c_17 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_c_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S_S1x128 : S_.BroadcastsInDim S1x128 (![] : Fin 0 → Fin S1x128.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S1x64_S64x128_S1x128_1_0_0_1_n_n_wf : DotDims.WF S1x64 S64x128 S1x128 [1] [0] [0] [1] [] []
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernRun.lean ====
/-
  The idealized kernel's run with its result named.

  The program is three tiled regions among stretches of host operations. Its buffer contents at each boundary form
  a chain from the launch memory: a stretch of host operations applies those operations' composed function, a region
  replaces its output array by what its grid points wrote back and keeps every other buffer. The generated frame
  certificate names that chain (`W0 … W6`) and proves that every weakly fair execution terminates with each
  unscoped buffer at the last link `W6`; it then reads off only the argument arrays. Read off at the result buffer
  as well, the same run says: the result ends at `W6` of the result buffer, and the arguments end unchanged.
-/
import proofs.«143145_j42752104464516_2_alg».proof.Proof.Gen.KernelIdeal.Frame

set_option maxRecDepth 16384

noncomputable section

namespace Cert.KernelIdeal.KernRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are determined by its conclusion, through plain definitions in their types
set_option backward.isDefEq.respectTransparency.types false in
/-- Every weakly fair execution of the idealized kernel terminates, nothing faulting, with the result buffer at the
    last link of the boundary chain and the argument arrays as launched. -/
theorem run : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KernRun

end
-- ==== Proof.RefDefs.lean ====
/-
  The idealized reference's host program, written as one composed function of its argument arrays.

  The program prepares the edge list (the two rows of the edge array, each followed by one self-loop per node),
  computes the degree normalisation `1/√(max (deg n) 1)`, the gate row and the context row, and applies two graph
  convolutions with a leaky rectifier between them. Each definition below is one stretch of the program's
  operations, composed in the program's own order and with the program's own dimension records, so that the
  program's result is `out` of the argument arrays by unfolding alone.
-/
import proofs.«143145_j42752104464516_2_alg».proof.ReferenceIdeal
import Idealize.ShloMosaic.PureOps.Ideal

noncomputable section

namespace Cert.ReferenceIdeal.RefDefs

open Idealize.ShloMosaic Cert.ReferenceIdeal Cert.ReferenceIdeal.Facts₀

variable [Cert.ReferenceIdeal.Facts]

/-- Row `0` of the edge array (the sources) followed by the self-loops `0, 1, …, 49999`. -/
def srcRaw (a9 : IVec S2x800000 32) : IVec S850000 32 :=
  concatenate S850000 0 [⟨S800000, shapeCast S800000 (extractStridedSlice S1x800000 ![0, 0] a9 slices_S2x800000_S1x800000_0_0) shapeCasts_S1x800000_S800000⟩,
    ⟨S50000, iotaInDim S50000 32 0⟩] concatenates_S800000_S50000_S850000_d0

/-- Row `1` of the edge array (the targets) followed by the self-loops. -/
def dstRaw (a9 : IVec S2x800000 32) : IVec S850000 32 :=
  concatenate S850000 0 [⟨S800000, shapeCast S800000 (extractStridedSlice S1x800000 ![1, 0] a9 slices_S2x800000_S1x800000_1_0) shapeCasts_S1x800000_S800000⟩,
    ⟨S50000, iotaInDim S50000 32 0⟩] concatenates_S800000_S50000_S850000_d0

/-- A negative index counted from the end: `i ↦ i + 50000` where `i < 0`. -/
def wrap (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- An index list as the one-column array a gather or scatter takes. -/
def col (s : IVec S850000 32) : IVec S850000x1 32 :=
  broadcastInDim S850000x1 ![0] bcast_S850000_S850000x1_0 s

/-- The number of edges into each node (self-loop included), as a float. -/
def deg (a9 : IVec S2x800000 32) : FVec Ideal S50000 .f32 :=
  Host.scatterAdd scatter_S50000_S850000x1_S850000_n_0_0_1
    (broadcastInDim S50000 ![] bcast_S_S50000 (constant (F := Ideal) S_ .f32 0x00000000#32))
    (col (dstRaw a9))
    (broadcastInDim S850000 ![] bcast_S_S850000 (constant (F := Ideal) S_ .f32 0x3F800000#32))

/-- The degree normalisation `1/√(max (deg n) 1)`. -/
def dinv (a9 : IVec S2x800000 32) : FVec Ideal S50000 .f32 :=
  Host.rsqrt (maximumf (deg a9) (broadcastInDim S50000 ![] bcast_S_S50000 (constant (F := Ideal) S_ .f32 0x3F800000#32)))

/-- The coefficient of each edge: the normalisation at its source times the normalisation at its target. -/
def norm (a9 : IVec S2x800000 32) : FVec Ideal S850000 .f32 :=
  mulf (Host.gather gather_S50000_S850000x1_S850000_n_0_n_n_0_1_1 (dinv a9) (col (wrap (srcRaw a9))))
    (Host.gather gather_S50000_S850000x1_S850000_n_0_n_n_0_1_1 (dinv a9) (col (wrap (dstRaw a9))))

/-- One graph convolution of already projected rows `h`: gather the source rows, weight by the edge coefficient, add
    up onto the target rows, add the bias row. -/
def conv (a9 : IVec S2x800000 32) (h : FVec Ideal S50000x128 .f32) (b : FVec Ideal S128 .f32) : FVec Ideal S50000x128 .f32 :=
  addf
    (Host.scatterAdd scatter_S50000x128_S850000x1_S850000x128_1_0_0_1
      (broadcastInDim S50000x128 ![] bcast_S_S50000x128 (constant (F := Ideal) S_ .f32 0x00000000#32))
      (col (dstRaw a9))
      (mulf (Host.gather gather_S50000x128_S850000x1_S850000x128_1_0_n_n_0_1_1128 h (col (wrap (srcRaw a9))))
        (broadcastInDim S850000x128 ![0, 1] bcast_S850000x1_S850000x128_0_1
          (broadcastInDim S850000x1 ![0] bcast_S850000_S850000x1_0 (norm a9)))))
    (broadcastInDim S50000x128 ![0, 1] bcast_S1x128_S50000x128_0_1 (broadcastInDim S1x128 ![1] bcast_S128_S1x128_1 b))

/-- The leaky rectifier with slope `0.2` below zero, cut at `v ≥ 0`. -/
def leaky (v : FVec Ideal S50000x128 .f32) : FVec Ideal S50000x128 .f32 :=
  select
    (cmpf .oge v (broadcastInDim S50000x128 ![] bcast_S_S50000x128 (constant (F := Ideal) S_ .f32 0x00000000#32)))
    v
    (mulf (broadcastInDim S50000x128 ![] bcast_S_S50000x128 (id (constant (F := Ideal) S_ .f32 0x3E4CCCCD#32))) v)

/-- The gate row `1 / (1 + exp (−(ctx · Wg + bg)))`. -/
def gate (a1 : FVec Ideal S1x64 .f32) (a6 : FVec Ideal S64x128 .f32) (a7 : FVec Ideal S128 .f32) : FVec Ideal S1x128 .f32 :=
  Host.divf (broadcastInDim S1x128 ![] bcast_S_S1x128 (constant (F := Ideal) S_ .f32 0x3F800000#32))
    (addf (broadcastInDim S1x128 ![] bcast_S_S1x128 (constant (F := Ideal) S_ .f32 0x3F800000#32))
      (Host.exp (Host.negf (addf (Host.dotGeneral dot_S1x64_S64x128_S1x128_1_0_0_1_n_n none a1 a6)
        (broadcastInDim S1x128 ![1] bcast_S128_S1x128_1 a7)))))

/-- The context row `ctx · Wb`. -/
def ctxBias (a1 : FVec Ideal S1x64 .f32) (a8 : FVec Ideal S64x128 .f32) : FVec Ideal S1x128 .f32 :=
  Host.dotGeneral dot_S1x64_S64x128_S1x128_1_0_0_1_n_n none a1 a8

/-- The program's result as one function of its ten argument arrays. -/
def out (a0 : FVec Ideal S50000x128 .f32) (a1 : FVec Ideal S1x64 .f32) (a2 : FVec Ideal S128x128 .f32) (a3 : FVec Ideal S128 .f32)
    (a4 : FVec Ideal S128x128 .f32) (a5 : FVec Ideal S128 .f32) (a6 : FVec Ideal S64x128 .f32) (a7 : FVec Ideal S128 .f32)
    (a8 : FVec Ideal S64x128 .f32) (a9 : IVec S2x800000 32) : FVec Ideal S50000x128 .f32 :=
  addf
    (mulf
      (conv a9 (Host.dotGeneral dot_S50000x128_S128x128_S50000x128_1_0_0_1_n_n none
        (leaky (conv a9 (Host.dotGeneral dot_S50000x128_S128x128_S50000x128_1_0_0_1_n_n none a0 a2) a3)) a4) a5)
      (broadcastInDim S50000x128 ![0, 1] bcast_S1x128_S50000x128_0_1 (gate a1 a6 a7)))
    (broadcastInDim S50000x128 ![0, 1] bcast_S1x128_S50000x128_0_1 (ctxBias a1 a8))

end Cert.ReferenceIdeal.RefDefs

end
-- ==== Proof.RefRun.lean ====
/-
  The run of the idealized reference's host program.

  The program is a straight line of array operations on one device: 125 of its own and, between its two graph
  convolutions, the seven of the leaky rectifier it calls (the rectifier's last operation is the select of the
  `where` it calls in turn). Written out in order — the rectifier's operations in the call's place, over the
  buffers that call names — the program IS the sequence of that list (`main_eq`). Every operation touches device
  buffers only (`ops_sub`) and no buffer or semaphore is scoped, so every weakly fair execution terminates with
  each buffer at the fold of the operations' results over the launch contents (`StableHlo.run_seq`).

  What the fold leaves in the result buffer is `RefDefs.out` of the ten argument arrays (`out_eq`): an operation
  writes its function of the buffers it reads and leaves every other buffer alone, so reading the result buffer
  back through the line, operation by operation, composes the operations' functions along the program's data
  flow — the composition `RefDefs` writes down stretch by stretch. No operation writes an argument buffer, so
  the arguments end as they began (`arg0_eq` … `arg9_eq`).
-/
import proofs.«143145_j42752104464516_2_alg».proof.Proof.RefDefs
import Idealize.ShloMosaic.Lib.StableHlo.Run

noncomputable section

namespace Cert.ReferenceIdeal.RefRun

open Idealize.ShloMosaic Idealize.ShloMosaic.TcCoe Idealize.SL.Sem Cert.ReferenceIdeal
open Idealize.ShloMosaic.StableHlo Cert.ReferenceIdeal.Facts₀

variable [Cert.ReferenceIdeal.Facts]

/-- An edge-end list with one self-loop per node appended: the 800000 ends, then the nodes `0, 1, …, 49999`. -/
def withLoops (a : IVec S800000 32) (b : IVec S50000 32) : IVec S850000 32 :=
  concatenate S850000 0 [⟨S800000, a⟩, ⟨S50000, b⟩] concatenates_S800000_S50000_S850000_d0

/-! ## The operations, in order

The list is cut where the program's text is cut (after its 60th and its 120th statement). At the ideal
instance a float of any format is an extended real, so an operation's format cannot be read off its
operands' types: each float operation names its format (`φ := .f32`). -/

/-- Statements 1 … 60. The two rows of the edge array, flattened (`%0` … `%3`); the gate row
    `1 / (1 + exp (−(ctx · Wg + bg)))` (`%4` … `%12`) and the context row `ctx · Wb` (`%13`); the first projection
    `x · W₁` (`%14`); the source and target lists with one self-loop per node appended (`%15` … `%17`); the degree
    of each node as a scatter-add of ones onto the targets, and its normalisation `1/√(max deg 1)` (`%18` … `%24`);
    the edge coefficient, the normalisation gathered at each edge's two ends (a negative index counted from the end)
    and multiplied (`%25` … `%39`); the projected rows gathered at the sources (`%40` … `%46`) and the coefficient
    spread along the 128 columns (`%47`, `%48`). -/
abbrev ops0 : List (HloOp τ sig (Elt Ideal)) :=
  [ unary main_arg9 main_v0 (extractStridedSlice S1x800000 ![0, 0] · slices_S2x800000_S1x800000_0_0),
    reshape main_v0 main_v1 rfl shapeCasts_S1x800000_S800000,
    unary main_arg9 main_v2 (extractStridedSlice S1x800000 ![1, 0] · slices_S2x800000_S1x800000_1_0),
    reshape main_v2 main_v3 rfl shapeCasts_S1x800000_S800000,
    binary main_arg1 main_arg6 main_v4 (fun l r => Host.dotGeneral (F := Ideal) (φ₁ := .f32) (φ₂ := .f32) dot_S1x64_S64x128_S1x128_1_0_0_1_n_n none l r),
    unary main_arg7 main_v5 (broadcastInDim S1x128 ![1] bcast_S128_S1x128_1),
    binary main_v4 main_v5 main_v6 (addf (F := Ideal) (φ := .f32)),
    unary main_v6 main_v7 (Host.negf (F := Ideal) (φ := .f32)),
    unary main_v7 main_v8 (Host.exp (F := Ideal) (φ := .f32)),
    nullary main_cst (constant (F := Ideal) S_ .f32 0x3F800000#32),
    unary main_cst main_v9 (broadcastInDim S1x128 ![] bcast_S_S1x128),
    binary main_v9 main_v8 main_v10 (addf (F := Ideal) (φ := .f32)),
    nullary main_cst_0 (constant (F := Ideal) S_ .f32 0x3F800000#32),
    unary main_cst_0 main_v11 (broadcastInDim S1x128 ![] bcast_S_S1x128),
    binary main_v11 main_v10 main_v12 (Host.divf (F := Ideal) (φ := .f32)),
    binary main_arg1 main_arg8 main_v13 (fun l r => Host.dotGeneral (F := Ideal) (φ₁ := .f32) (φ₂ := .f32) dot_S1x64_S64x128_S1x128_1_0_0_1_n_n none l r),
    binary main_arg0 main_arg2 main_v14 (fun l r => Host.dotGeneral (F := Ideal) (φ₁ := .f32) (φ₂ := .f32) dot_S50000x128_S128x128_S50000x128_1_0_0_1_n_n none l r),
    nullary main_v15 (iotaInDim S50000 32 0),
    binary main_v1 main_v15 main_v16 withLoops,
    binary main_v3 main_v15 main_v17 withLoops,
    nullary main_cst_1 (constant (F := Ideal) S_ .f32 0x3F800000#32),
    unary main_cst_1 main_v18 (broadcastInDim S850000 ![] bcast_S_S850000),
    nullary main_cst_2 (constant (F := Ideal) S_ .f32 0x00000000#32),
    unary main_cst_2 main_v19 (broadcastInDim S50000 ![] bcast_S_S50000),
    unary main_v17 main_v20 (broadcastInDim S850000x1 ![0] bcast_S850000_S850000x1_0),
    ternary main_v19 main_v20 main_v18 main_v21 (fun x i u => Host.scatterAdd (F := Ideal) (φ := .f32) scatter_S50000_S850000x1_S850000_n_0_0_1 x i u),
    nullary main_cst_3 (constant (F := Ideal) S_ .f32 0x3F800000#32),
    unary main_cst_3 main_v22 (broadcastInDim S50000 ![] bcast_S_S50000),
    binary main_v21 main_v22 main_v23 (maximumf (F := Ideal) (φ := .f32)),
    unary main_v23 main_v24 (Host.rsqrt (F := Ideal) (φ := .f32)),
    nullary main_c (constantI S_ 32 0#32),
    unary main_c main_v25 (broadcastInDim S850000 ![] bcast_S_S850000),
    binary main_v16 main_v25 main_v26 (cmpi .slt),
    nullary main_c_4 (constantI S_ 32 50000#32),
    unary main_c_4 main_v27 (broadcastInDim S850000 ![] bcast_S_S850000),
    binary main_v16 main_v27 main_v28 addi,
    ternary main_v26 main_v28 main_v16 main_v29 select,
    unary main_v29 main_v30 (broadcastInDim S850000x1 ![0] bcast_S850000_S850000x1_0),
    binary main_v24 main_v30 main_v31 (fun x i => Host.gather gather_S50000_S850000x1_S850000_n_0_n_n_0_1_1 x i),
    nullary main_c_5 (constantI S_ 32 0#32),
    unary main_c_5 main_v32 (broadcastInDim S850000 ![] bcast_S_S850000),
    binary main_v17 main_v32 main_v33 (cmpi .slt),
    nullary main_c_6 (constantI S_ 32 50000#32),
    unary main_c_6 main_v34 (broadcastInDim S850000 ![] bcast_S_S850000),
    binary main_v17 main_v34 main_v35 addi,
    ternary main_v33 main_v35 main_v17 main_v36 select,
    unary main_v36 main_v37 (broadcastInDim S850000x1 ![0] bcast_S850000_S850000x1_0),
    binary main_v24 main_v37 main_v38 (fun x i => Host.gather gather_S50000_S850000x1_S850000_n_0_n_n_0_1_1 x i),
    binary main_v31 main_v38 main_v39 (mulf (F := Ideal) (φ := .f32)),
    nullary main_c_7 (constantI S_ 32 0#32),
    unary main_c_7 main_v40 (broadcastInDim S850000 ![] bcast_S_S850000),
    binary main_v16 main_v40 main_v41 (cmpi .slt),
    nullary main_c_8 (constantI S_ 32 50000#32),
    unary main_c_8 main_v42 (broadcastInDim S850000 ![] bcast_S_S850000),
    binary main_v16 main_v42 main_v43 addi,
    ternary main_v41 main_v43 main_v16 main_v44 select,
    unary main_v44 main_v45 (broadcastInDim S850000x1 ![0] bcast_S850000_S850000x1_0),
    binary main_v14 main_v45 main_v46 (fun x i => Host.gather gather_S50000x128_S850000x1_S850000x128_1_0_n_n_0_1_1128 x i),
    unary main_v39 main_v47 (broadcastInDim S850000x1 ![0] bcast_S850000_S850000x1_0),
    unary main_v47 main_v48 (broadcastInDim S850000x128 ![0, 1] bcast_S850000x1_S850000x128_0_1) ]

/-- Statements 61 … 120. The first convolution finished: the weighted rows added up onto the targets, plus the bias
    row (`%49` … `%55`). The leaky rectifier with slope `0.2`, its seven operations in place of the call: the zero
    and its spread, the test `v ≥ 0`, the slope (a change of format: the identity) and its spread, the product
    `0.2 · v`, and the select between `v` and it. The second projection `· W₂` (`%57`), and the second convolution up to
    its scatter-add, the edge lists, the degree normalisation and the edge coefficient computed anew by the same
    operations (`%58` … `%95`); the second bias as a row (`%96`). -/
abbrev ops1 : List (HloOp τ sig (Elt Ideal)) :=
  [ binary main_v46 main_v48 main_v49 (mulf (F := Ideal) (φ := .f32)),
    nullary main_cst_9 (constant (F := Ideal) S_ .f32 0x00000000#32),
    unary main_cst_9 main_v50 (broadcastInDim S50000x128 ![] bcast_S_S50000x128),
    unary main_v17 main_v51 (broadcastInDim S850000x1 ![0] bcast_S850000_S850000x1_0),
    ternary main_v50 main_v51 main_v49 main_v52 (fun x i u => Host.scatterAdd (F := Ideal) (φ := .f32) scatter_S50000x128_S850000x1_S850000x128_1_0_0_1 x i u),
    unary main_arg3 main_v53 (broadcastInDim S1x128 ![1] bcast_S128_S1x128_1),
    unary main_v53 main_v54 (broadcastInDim S50000x128 ![0, 1] bcast_S1x128_S50000x128_0_1),
    binary main_v52 main_v54 main_v55 (addf (F := Ideal) (φ := .f32)),
    nullary main_cst_10 (constant (F := Ideal) S_ .f32 0x3E4CCCCD#32),
    nullary main_call0_cst (constant (F := Ideal) S_ .f32 0x00000000#32),
    unary main_call0_cst main_call0_v0 (broadcastInDim S50000x128 ![] bcast_S_S50000x128),
    binary main_v55 main_call0_v0 main_call0_v1 (cmpf (F := Ideal) (φ := .f32) .oge),
    unary main_cst_10 main_call0_v2 id,
    unary main_call0_v2 main_call0_v3 (broadcastInDim S50000x128 ![] bcast_S_S50000x128),
    binary main_call0_v3 main_v55 main_call0_v4 (mulf (F := Ideal) (φ := .f32)),
    ternary main_call0_v1 main_v55 main_call0_v4 main_v56 select,
    binary main_v56 main_arg4 main_v57 (fun l r => Host.dotGeneral (F := Ideal) (φ₁ := .f32) (φ₂ := .f32) dot_S50000x128_S128x128_S50000x128_1_0_0_1_n_n none l r),
    nullary main_v58 (iotaInDim S50000 32 0),
    binary main_v1 main_v58 main_v59 withLoops,
    binary main_v3 main_v58 main_v60 withLoops,
    nullary main_cst_11 (constant (F := Ideal) S_ .f32 0x3F800000#32),
    unary main_cst_11 main_v61 (broadcastInDim S850000 ![] bcast_S_S850000),
    nullary main_cst_12 (constant (F := Ideal) S_ .f32 0x00000000#32),
    unary main_cst_12 main_v62 (broadcastInDim S50000 ![] bcast_S_S50000),
    unary main_v60 main_v63 (broadcastInDim S850000x1 ![0] bcast_S850000_S850000x1_0),
    ternary main_v62 main_v63 main_v61 main_v64 (fun x i u => Host.scatterAdd (F := Ideal) (φ := .f32) scatter_S50000_S850000x1_S850000_n_0_0_1 x i u),
    nullary main_cst_13 (constant (F := Ideal) S_ .f32 0x3F800000#32),
    unary main_cst_13 main_v65 (broadcastInDim S50000 ![] bcast_S_S50000),
    binary main_v64 main_v65 main_v66 (maximumf (F := Ideal) (φ := .f32)),
    unary main_v66 main_v67 (Host.rsqrt (F := Ideal) (φ := .f32)),
    nullary main_c_14 (constantI S_ 32 0#32),
    unary main_c_14 main_v68 (broadcastInDim S850000 ![] bcast_S_S850000),
    binary main_v59 main_v68 main_v69 (cmpi .slt),
    nullary main_c_15 (constantI S_ 32 50000#32),
    unary main_c_15 main_v70 (broadcastInDim S850000 ![] bcast_S_S850000),
    binary main_v59 main_v70 main_v71 addi,
    ternary main_v69 main_v71 main_v59 main_v72 select,
    unary main_v72 main_v73 (broadcastInDim S850000x1 ![0] bcast_S850000_S850000x1_0),
    binary main_v67 main_v73 main_v74 (fun x i => Host.gather gather_S50000_S850000x1_S850000_n_0_n_n_0_1_1 x i),
    nullary main_c_16 (constantI S_ 32 0#32),
    unary main_c_16 main_v75 (broadcastInDim S850000 ![] bcast_S_S850000),
    binary main_v60 main_v75 main_v76 (cmpi .slt),
    nullary main_c_17 (constantI S_ 32 50000#32),
    unary main_c_17 main_v77 (broadcastInDim S850000 ![] bcast_S_S850000),
    binary main_v60 main_v77 main_v78 addi,
    ternary main_v76 main_v78 main_v60 main_v79 select,
    unary main_v79 main_v80 (broadcastInDim S850000x1 ![0] bcast_S850000_S850000x1_0),
    binary main_v67 main_v80 main_v81 (fun x i => Host.gather gather_S50000_S850000x1_S850000_n_0_n_n_0_1_1 x i),
    binary main_v74 main_v81 main_v82 (mulf (F := Ideal) (φ := .f32)),
    nullary main_c_18 (constantI S_ 32 0#32),
    unary main_c_18 main_v83 (broadcastInDim S850000 ![] bcast_S_S850000),
    binary main_v59 main_v83 main_v84 (cmpi .slt),
    nullary main_c_19 (constantI S_ 32 50000#32),
    unary main_c_19 main_v85 (broadcastInDim S850000 ![] bcast_S_S850000),
    binary main_v59 main_v85 main_v86 addi,
    ternary main_v84 main_v86 main_v59 main_v87 select,
    unary main_v87 main_v88 (broadcastInDim S850000x1 ![0] bcast_S850000_S850000x1_0),
    binary main_v57 main_v88 main_v89 (fun x i => Host.gather gather_S50000x128_S850000x1_S850000x128_1_0_n_n_0_1_1128 x i),
    unary main_v82 main_v90 (broadcastInDim S850000x1 ![0] bcast_S850000_S850000x1_0),
    unary main_v90 main_v91 (broadcastInDim S850000x128 ![0, 1] bcast_S850000x1_S850000x128_0_1),
    binary main_v89 main_v91 main_v92 (mulf (F := Ideal) (φ := .f32)),
    nullary main_cst_20 (constant (F := Ideal) S_ .f32 0x00000000#32),
    unary main_cst_20 main_v93 (broadcastInDim S50000x128 ![] bcast_S_S50000x128),
    unary main_v60 main_v94 (broadcastInDim S850000x1 ![0] bcast_S850000_S850000x1_0),
    ternary main_v93 main_v94 main_v92 main_v95 (fun x i u => Host.scatterAdd (F := Ideal) (φ := .f32) scatter_S50000x128_S850000x1_S850000x128_1_0_0_1 x i u),
    unary main_arg5 main_v96 (broadcastInDim S1x128 ![1] bcast_S128_S1x128_1) ]

/-- Statements 121 … 126 (the 127th is the return). The second bias added; the result multiplied by the gate row
    and the context row added, both spread over the 50000 nodes. -/
abbrev ops2 : List (HloOp τ sig (Elt Ideal)) :=
  [ unary main_v96 main_v97 (broadcastInDim S50000x128 ![0, 1] bcast_S1x128_S50000x128_0_1),
    binary main_v95 main_v97 main_v98 (addf (F := Ideal) (φ := .f32)),
    unary main_v12 main_v99 (broadcastInDim S50000x128 ![0, 1] bcast_S1x128_S50000x128_0_1),
    binary main_v98 main_v99 main_v100 (mulf (F := Ideal) (φ := .f32)),
    unary main_v13 main_v101 (broadcastInDim S50000x128 ![0, 1] bcast_S1x128_S50000x128_0_1),
    binary main_v100 main_v101 main_v102 (addf (F := Ideal) (φ := .f32)) ]

/-- The program's 132 operations, in order. -/
abbrev ops : List (HloOp τ sig (Elt Ideal)) := ops0 ++ (ops1 ++ ops2)

/-! ## The program is the sequence of its operations -/

-- sixty statements unfolded, one binder deep per statement: past the default depth
set_option maxRecDepth 8192 in
/-- The first window is its operations in sequence, by unfolding. -/
theorem main_part0_eq (c : Dev nD) : main_part0 (F := Ideal) c = seq ops0 := rfl

-- as above, and sixty-six binds re-associated
set_option maxRecDepth 8192 in
/-- The second window likewise, once the rectifier's body and the select's are unfolded at their calls and the
    sequencing re-associated to one chain (`bind_assoc`, `pure_bind`). -/
theorem main_part1_eq (c : Dev nD) : main_part1 (F := Ideal) c = seq ops1 := by
  simp only [main_part1, fn_leaky_relu.body, fn_where.body, seq, bind_assoc, pure_bind]
  rfl

/-- The third window is its operations in sequence, by unfolding. -/
theorem main_part2_eq (c : Dev nD) : main_part2 (F := Ideal) c = seq ops2 := rfl

/-- The program runs its three windows in order, and lists run one after the other are their concatenation run
    as one (`seq_append`). -/
theorem main_eq (c : Dev nD) : main (F := Ideal) c = seq ops := by
  simp only [ops, seq_append, ← main_part0_eq c, ← main_part1_eq c, ← main_part2_eq c]
  rfl

/-! ## The side conditions of the run

The signature scopes no buffer and no semaphore (by computation over its tables), and every operation is one of the
builders over references, which touch TensorCore references only. -/

theorem scopedRefs_eq : (Finset.univ.filter fun b : Ref sig .tc => b.isScoped) = ∅ := by decide
theorem scopedSems_eq : (Finset.univ.filter fun sm : SemLoc sig => sm.isScoped .tc) = ∅ := by decide

-- a conjunction sixty deep
set_option maxRecDepth 8192 in
theorem ops0_sub : (ops0 : List (HloOp τ sig (Elt Ideal))).Forall fun op => op.bufs ⊆ tcRefs τ sig :=
  ⟨unary_bufs_sub .., reshape_bufs_sub .., unary_bufs_sub .., reshape_bufs_sub .., binary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..⟩

-- a conjunction sixty-six deep
set_option maxRecDepth 8192 in
theorem ops1_sub : (ops1 : List (HloOp τ sig (Elt Ideal))).Forall fun op => op.bufs ⊆ tcRefs τ sig :=
  ⟨binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., nullary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..⟩

theorem ops2_sub : (ops2 : List (HloOp τ sig (Elt Ideal))).Forall fun op => op.bufs ⊆ tcRefs τ sig :=
  ⟨unary_bufs_sub .., binary_bufs_sub .., unary_bufs_sub .., binary_bufs_sub .., unary_bufs_sub .., binary_bufs_sub ..⟩

/-- Every operation touches TensorCore references only: an operation of the whole list is one of a window's. -/
theorem ops_sub : (ops : List (HloOp τ sig (Elt Ideal))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-! ## What the operations leave in the buffers -/

/-- Lists folded one after the other are their concatenation folded as one. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- Reading a buffer after the whole line: the fold over the list is the folds over the three windows one after
    the other (`after_append`), and over a window it is one step per operation (`after_cons`). An operation's result
    at the buffer it writes is its function of the buffers it reads (`*_result'`), at any other buffer what was there
    before it (`*_result_ne'`, the two buffers told apart by deciding the references' equality); rewriting with these
    from the last operation back to the first leaves a term over the launch contents only. -/
local macro "read_back" : tactic =>
  `(tactic| (simp only [ops, after_append, ops0, ops1, ops2]; after_results_simp))

-- one rewriting pass through all 132 operations, each operand traced back to the operation that produced it, and a
-- comparison of two terms some eighty applications deep: far past the default budgets
set_option maxRecDepth 16384 in
set_option maxHeartbeats 60000000 in
/-- After the line the result buffer holds `RefDefs.out` of the argument arrays. Read back through the line, it is
    the last addition's function of the two buffers before it, those are their operations' functions of the buffers
    before them, and so on down to the arguments: the program's data flow composed. `RefDefs.out` is the same
    composition written stretch by stretch (the edge lists, the degree normalisation, the edge coefficient, a
    convolution, the rectifier, the gate and context rows), in the program's order and with its dimension records,
    so the two terms agree by unfolding those definitions; a flattened row's element type is carried along an
    equation that is `rfl`, and the rectifier's slope passes through a change of format that is the identity. -/
theorem out_eq (V : Valuation τ sig (Elt Ideal)) :
    after ops V (Proc.devRef .tc main_v102)
      = RefDefs.out (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) := by
  read_back
  rfl

/-! No operation writes an argument's buffer (each writes the buffer of the value it defines), so read back through
the line an argument's buffer is passed over by every operation. -/

set_option maxRecDepth 16384 in
set_option maxHeartbeats 4000000 in
theorem arg0_eq (V : Valuation τ sig (Elt Ideal)) :
    after ops V (Proc.devRef .tc main_arg0) = V (Proc.devRef .tc main_arg0) := by
  read_back

set_option maxRecDepth 16384 in
set_option maxHeartbeats 4000000 in
theorem arg1_eq (V : Valuation τ sig (Elt Ideal)) :
    after ops V (Proc.devRef .tc main_arg1) = V (Proc.devRef .tc main_arg1) := by
  read_back

set_option maxRecDepth 16384 in
set_option maxHeartbeats 4000000 in
theorem arg2_eq (V : Valuation τ sig (Elt Ideal)) :
    after ops V (Proc.devRef .tc main_arg2) = V (Proc.devRef .tc main_arg2) := by
  read_back

set_option maxRecDepth 16384 in
set_option maxHeartbeats 4000000 in
theorem arg3_eq (V : Valuation τ sig (Elt Ideal)) :
    after ops V (Proc.devRef .tc main_arg3) = V (Proc.devRef .tc main_arg3) := by
  read_back

set_option maxRecDepth 16384 in
set_option maxHeartbeats 4000000 in
theorem arg4_eq (V : Valuation τ sig (Elt Ideal)) :
    after ops V (Proc.devRef .tc main_arg4) = V (Proc.devRef .tc main_arg4) := by
  read_back

set_option maxRecDepth 16384 in
set_option maxHeartbeats 4000000 in
theorem arg5_eq (V : Valuation τ sig (Elt Ideal)) :
    after ops V (Proc.devRef .tc main_arg5) = V (Proc.devRef .tc main_arg5) := by
  read_back

set_option maxRecDepth 16384 in
set_option maxHeartbeats 4000000 in
theorem arg6_eq (V : Valuation τ sig (Elt Ideal)) :
    after ops V (Proc.devRef .tc main_arg6) = V (Proc.devRef .tc main_arg6) := by
  read_back

set_option maxRecDepth 16384 in
set_option maxHeartbeats 4000000 in
theorem arg7_eq (V : Valuation τ sig (Elt Ideal)) :
    after ops V (Proc.devRef .tc main_arg7) = V (Proc.devRef .tc main_arg7) := by
  read_back

set_option maxRecDepth 16384 in
set_option maxHeartbeats 4000000 in
theorem arg8_eq (V : Valuation τ sig (Elt Ideal)) :
    after ops V (Proc.devRef .tc main_arg8) = V (Proc.devRef .tc main_arg8) := by
  read_back

set_option maxRecDepth 16384 in
set_option maxHeartbeats 4000000 in
theorem arg9_eq (V : Valuation τ sig (Elt Ideal)) :
    after ops V (Proc.devRef .tc main_arg9) = V (Proc.devRef .tc main_arg9) := by
  read_back

/-! ## The run -/

/-- Every weakly fair execution of the reference terminates without a fault, with its result at `RefDefs.out` of
    the argument arrays and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v102)
          = RefDefs.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono
    (fun _ h c => ⟨(h c main_v102).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq (defs (F := Ideal)) (main (F := Ideal)) (fun _ => ops) main_eq (fun _ => ops_sub) m ρ)

end Cert.ReferenceIdeal.RefRun

end
-- ==== Proof.KernDefs.lean ====
/-
  The host side of the idealized kernel's program, as composed functions of the argument arrays.

  Around its three tiled regions the program prepares, on the host, the edge list (the two rows of the edge array,
  each followed by one self-loop per node), the degree normalisation `1/√(max (deg n) 1)` laid out as a column,
  the bias rows, the gate row and the context row. Each definition below is one such stretch, composed in the
  program's own order and with the program's own dimension records.
-/
import proofs.«143145_j42752104464516_2_alg».proof.KernelIdeal
import Idealize.ShloMosaic.PureOps.Ideal

noncomputable section

namespace Cert.KernelIdeal.KernDefs

open Idealize.ShloMosaic Cert.KernelIdeal Cert.KernelIdeal.Facts₀

variable [Cert.KernelIdeal.Facts]

/-- Row `0` of the edge array (the sources) followed by the self-loops `0, 1, …, 49999`. -/
def srcRaw (a9 : IVec S2x800000 32) : IVec S850000 32 :=
  concatenate S850000 0 [⟨S800000, shapeCast S800000 (extractStridedSlice S1x800000 ![0, 0] a9 slices_S2x800000_S1x800000_0_0) shapeCasts_S1x800000_S800000⟩,
    ⟨S50000, iotaInDim S50000 32 0⟩] concatenates_S800000_S50000_S850000_d0

/-- Row `1` of the edge array (the targets) followed by the self-loops. -/
def dstRaw (a9 : IVec S2x800000 32) : IVec S850000 32 :=
  concatenate S850000 0 [⟨S800000, shapeCast S800000 (extractStridedSlice S1x800000 ![1, 0] a9 slices_S2x800000_S1x800000_1_0) shapeCasts_S1x800000_S800000⟩,
    ⟨S50000, iotaInDim S50000 32 0⟩] concatenates_S800000_S50000_S850000_d0

/-- A negative index counted from the end: `i ↦ i + 50000` where `i < 0`. -/
def wrap (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- An index list as the one-column array a gather or scatter takes. -/
def col (s : IVec S850000 32) : IVec S850000x1 32 :=
  broadcastInDim S850000x1 ![0] bcast_S850000_S850000x1_0 s

/-- The number of edges into each node (self-loop included), as a float. -/
def deg (a9 : IVec S2x800000 32) : FVec Ideal S50000 .f32 :=
  Host.scatterAdd scatter_S50000_S850000x1_S850000_n_0_0_1
    (broadcastInDim S50000 ![] bcast_S_S50000 (constant (F := Ideal) S_ .f32 0x00000000#32))
    (col (dstRaw a9))
    (broadcastInDim S850000 ![] bcast_S_S850000 (constant (F := Ideal) S_ .f32 0x3F800000#32))

/-- The degree normalisation `1/√(max (deg n) 1)`. -/
def dinv (a9 : IVec S2x800000 32) : FVec Ideal S50000 .f32 :=
  Host.rsqrt (maximumf (deg a9) (broadcastInDim S50000 ![] bcast_S_S50000 (constant (F := Ideal) S_ .f32 0x3F800000#32)))

/-- The normalisation laid out as a column `[50000, 1]`: what every region's second row-tiled window reads. -/
def dinvCol (a9 : IVec S2x800000 32) : FVec Ideal S50000x1 .f32 :=
  shapeCast S50000x1 (dinv a9) shapeCasts_S50000_S50000x1

/-- One unweighted propagation of the rows `y`: gather the source rows, add them up onto the target rows. -/
def spread (a9 : IVec S2x800000 32) (y : FVec Ideal S50000x128 .f32) : FVec Ideal S50000x128 .f32 :=
  Host.scatterAdd scatter_S50000x128_S850000x1_S850000x128_1_0_0_1
    (broadcastInDim S50000x128 ![] bcast_S_S50000x128 (constant (F := Ideal) S_ .f32 0x00000000#32))
    (col (dstRaw a9))
    (Host.gather gather_S50000x128_S850000x1_S850000x128_1_0_n_n_0_1_1128 y (col (wrap (srcRaw a9))))

/-- A bias vector laid out as a row `[1, 128]`. -/
def biasRow (b : FVec Ideal S128 .f32) : FVec Ideal S1x128 .f32 :=
  shapeCast S1x128 b shapeCasts_S128_S1x128

/-- The gate row `1 / (1 + exp (−(ctx · Wg + bg)))`. -/
def gate (a1 : FVec Ideal S1x64 .f32) (a6 : FVec Ideal S64x128 .f32) (a7 : FVec Ideal S128 .f32) : FVec Ideal S1x128 .f32 :=
  Host.divf (broadcastInDim S1x128 ![] bcast_S_S1x128 (constant (F := Ideal) S_ .f32 0x3F800000#32))
    (addf (broadcastInDim S1x128 ![] bcast_S_S1x128 (constant (F := Ideal) S_ .f32 0x3F800000#32))
      (Host.exp (Host.negf (addf (Host.dotGeneral dot_S1x64_S64x128_S1x128_1_0_0_1_n_n none a1 a6)
        (broadcastInDim S1x128 ![1] bcast_S128_S1x128_1 a7)))))

/-- The context row `ctx · Wb`. -/
def ctxBias (a1 : FVec Ideal S1x64 .f32) (a8 : FVec Ideal S64x128 .f32) : FVec Ideal S1x128 .f32 :=
  Host.dotGeneral dot_S1x64_S64x128_S1x128_1_0_0_1_n_n none a1 a8

end Cert.KernelIdeal.KernDefs

end
-- ==== Proof.KernChain.lean ====
/-
  The idealized kernel's buffer contents at the entry of each of its three regions, as functions of the argument arrays.

  The boundary chain `W0 … W6` of the generated frame certificate alternates a stretch of host operations
  (`StableHlo.after`: each operation's result at its own buffer, every other buffer kept) with a region
  (`Pipeline.withArrays`: the region's arrays at what the pipeline leaves, every other buffer kept; an input
  window's array is left as it was found). Walking each buffer a region reads back through that chain gives:

  * region 0 reads the node features, the first weight matrix and the normalisation column `dinvCol`;
  * region 1 reads the unweighted propagation `spread` of region 0's output array, the normalisation column, the first
    bias as a row and the second weight matrix;
  * region 2 reads the propagation of region 1's output array, the normalisation column, the second bias as a row, the
    gate row and the context row;
  * the program's result buffer ends at region 2's output array.
-/
import proofs.«143145_j42752104464516_2_alg».proof.Proof.Gen.KernelIdeal.Frame
import proofs.«143145_j42752104464516_2_alg».proof.Proof.KernDefs
import Idealize.ShloMosaic.Lib.StableHlo.Run

set_option maxRecDepth 16384

noncomputable section

namespace Cert.KernelIdeal.KernChain

open Idealize.ShloMosaic Idealize.ShloMosaic.TcCoe Idealize.SL.Sem
open Cert.KernelIdeal Cert.KernelIdeal.Gen Cert.KernelIdeal.KernDefs
open StableHlo

variable (m : (ℓ : Loc nD τ sig) → Buf (Elt Ideal) ℓ) (ρ : Dev nD → PrngReg) (c : Dev nD)

/-- The launch contents of an argument array on core `c`. -/
abbrev arg (b : Ref sig .tc) : Buf (Elt Ideal) ((c : Thread nD τ).loc b) := m ((c : Thread nD τ).loc b)

/-- Region 0's output array after the region. -/
abbrev Y1 := (dat0 (V1 m ρ) c).arrAt 3 cfg0.N
/-- Region 1's output array after the region. -/
abbrev Y2 := (dat1 (V3 m ρ) c).arrAt 4 cfg1.N

/-! ## After the first stretch of host operations (region 0's entry) -/

theorem W1_arg0 : W1 m ρ c (Proc.devRef .tc main_arg0) = arg m c main_arg0 := by
  show StableHlo.after hostOps0 (W0 m ρ c) (Proc.devRef .tc main_arg0) = _
  after_results

theorem W1_arg1 : W1 m ρ c (Proc.devRef .tc main_arg1) = arg m c main_arg1 := by
  show StableHlo.after hostOps0 (W0 m ρ c) (Proc.devRef .tc main_arg1) = _
  after_results

theorem W1_arg2 : W1 m ρ c (Proc.devRef .tc main_arg2) = arg m c main_arg2 := by
  show StableHlo.after hostOps0 (W0 m ρ c) (Proc.devRef .tc main_arg2) = _
  after_results

theorem W1_arg3 : W1 m ρ c (Proc.devRef .tc main_arg3) = arg m c main_arg3 := by
  show StableHlo.after hostOps0 (W0 m ρ c) (Proc.devRef .tc main_arg3) = _
  after_results

theorem W1_arg4 : W1 m ρ c (Proc.devRef .tc main_arg4) = arg m c main_arg4 := by
  show StableHlo.after hostOps0 (W0 m ρ c) (Proc.devRef .tc main_arg4) = _
  after_results

theorem W1_arg5 : W1 m ρ c (Proc.devRef .tc main_arg5) = arg m c main_arg5 := by
  show StableHlo.after hostOps0 (W0 m ρ c) (Proc.devRef .tc main_arg5) = _
  after_results

theorem W1_arg6 : W1 m ρ c (Proc.devRef .tc main_arg6) = arg m c main_arg6 := by
  show StableHlo.after hostOps0 (W0 m ρ c) (Proc.devRef .tc main_arg6) = _
  after_results

theorem W1_arg7 : W1 m ρ c (Proc.devRef .tc main_arg7) = arg m c main_arg7 := by
  show StableHlo.after hostOps0 (W0 m ρ c) (Proc.devRef .tc main_arg7) = _
  after_results

theorem W1_arg8 : W1 m ρ c (Proc.devRef .tc main_arg8) = arg m c main_arg8 := by
  show StableHlo.after hostOps0 (W0 m ρ c) (Proc.devRef .tc main_arg8) = _
  after_results

/-- The source index list. -/
theorem W1_v5 : W1 m ρ c (Proc.devRef .tc main_v5) = srcRaw (arg m c main_arg9) := by
  show StableHlo.after hostOps0 (W0 m ρ c) (Proc.devRef .tc main_v5) = _
  after_results
  rfl

/-- The target index list. -/
theorem W1_v6 : W1 m ρ c (Proc.devRef .tc main_v6) = dstRaw (arg m c main_arg9) := by
  show StableHlo.after hostOps0 (W0 m ρ c) (Proc.devRef .tc main_v6) = _
  after_results
  rfl

/-- The normalisation column. -/
theorem W1_v14 : W1 m ρ c (Proc.devRef .tc main_v14) = dinvCol (arg m c main_arg9) := by
  show StableHlo.after hostOps0 (W0 m ρ c) (Proc.devRef .tc main_v14) = _
  after_results
  rfl

/-! ## After region 0 -/

theorem W2_arg1 : W2 m ρ c (Proc.devRef .tc main_arg1) = arg m c main_arg1 :=
  (W2_of_ne m ρ c main_arg1 (by decide)).trans (W1_arg1 m ρ c)

theorem W2_arg3 : W2 m ρ c (Proc.devRef .tc main_arg3) = arg m c main_arg3 :=
  (W2_of_ne m ρ c main_arg3 (by decide)).trans (W1_arg3 m ρ c)

theorem W2_arg4 : W2 m ρ c (Proc.devRef .tc main_arg4) = arg m c main_arg4 :=
  (W2_of_ne m ρ c main_arg4 (by decide)).trans (W1_arg4 m ρ c)

theorem W2_arg5 : W2 m ρ c (Proc.devRef .tc main_arg5) = arg m c main_arg5 :=
  (W2_of_ne m ρ c main_arg5 (by decide)).trans (W1_arg5 m ρ c)

theorem W2_arg6 : W2 m ρ c (Proc.devRef .tc main_arg6) = arg m c main_arg6 :=
  (W2_of_ne m ρ c main_arg6 (by decide)).trans (W1_arg6 m ρ c)

theorem W2_arg7 : W2 m ρ c (Proc.devRef .tc main_arg7) = arg m c main_arg7 :=
  (W2_of_ne m ρ c main_arg7 (by decide)).trans (W1_arg7 m ρ c)

theorem W2_arg8 : W2 m ρ c (Proc.devRef .tc main_arg8) = arg m c main_arg8 :=
  (W2_of_ne m ρ c main_arg8 (by decide)).trans (W1_arg8 m ρ c)

theorem W2_v5 : W2 m ρ c (Proc.devRef .tc main_v5) = srcRaw (arg m c main_arg9) :=
  (W2_of_ne m ρ c main_v5 (by decide)).trans (W1_v5 m ρ c)

theorem W2_v6 : W2 m ρ c (Proc.devRef .tc main_v6) = dstRaw (arg m c main_arg9) :=
  (W2_of_ne m ρ c main_v6 (by decide)).trans (W1_v6 m ρ c)

/-- The normalisation column is an input window's array of region 0: left as found. -/
theorem W2_v14 : W2 m ρ c (Proc.devRef .tc main_v14) = dinvCol (arg m c main_arg9) :=
  (W2_arr m ρ c 2).trans ((((dat0 (V1 m ρ) c).arrAt_in 2 rfl _).trans (A_eq0 (V1 m ρ) c 2)).trans (W1_v14 m ρ c))

theorem W2_v15 : W2 m ρ c (Proc.devRef .tc main_v15) = Y1 m ρ c := W2_arr m ρ c 3

/-! ## After the second stretch (region 1's entry) -/

theorem W3_arg1 : W3 m ρ c (Proc.devRef .tc main_arg1) = arg m c main_arg1 := by
  show StableHlo.after hostOps1 (W2 m ρ c) (Proc.devRef .tc main_arg1) = _
  after_results <;> exact W2_arg1 m ρ c

theorem W3_arg4 : W3 m ρ c (Proc.devRef .tc main_arg4) = arg m c main_arg4 := by
  show StableHlo.after hostOps1 (W2 m ρ c) (Proc.devRef .tc main_arg4) = _
  after_results <;> exact W2_arg4 m ρ c

theorem W3_arg5 : W3 m ρ c (Proc.devRef .tc main_arg5) = arg m c main_arg5 := by
  show StableHlo.after hostOps1 (W2 m ρ c) (Proc.devRef .tc main_arg5) = _
  after_results <;> exact W2_arg5 m ρ c

theorem W3_arg6 : W3 m ρ c (Proc.devRef .tc main_arg6) = arg m c main_arg6 := by
  show StableHlo.after hostOps1 (W2 m ρ c) (Proc.devRef .tc main_arg6) = _
  after_results <;> exact W2_arg6 m ρ c

theorem W3_arg7 : W3 m ρ c (Proc.devRef .tc main_arg7) = arg m c main_arg7 := by
  show StableHlo.after hostOps1 (W2 m ρ c) (Proc.devRef .tc main_arg7) = _
  after_results <;> exact W2_arg7 m ρ c

theorem W3_arg8 : W3 m ρ c (Proc.devRef .tc main_arg8) = arg m c main_arg8 := by
  show StableHlo.after hostOps1 (W2 m ρ c) (Proc.devRef .tc main_arg8) = _
  after_results <;> exact W2_arg8 m ρ c

theorem W3_v5 : W3 m ρ c (Proc.devRef .tc main_v5) = srcRaw (arg m c main_arg9) := by
  show StableHlo.after hostOps1 (W2 m ρ c) (Proc.devRef .tc main_v5) = _
  after_results <;> exact W2_v5 m ρ c

theorem W3_v6 : W3 m ρ c (Proc.devRef .tc main_v6) = dstRaw (arg m c main_arg9) := by
  show StableHlo.after hostOps1 (W2 m ρ c) (Proc.devRef .tc main_v6) = _
  after_results <;> exact W2_v6 m ρ c

theorem W3_v14 : W3 m ρ c (Proc.devRef .tc main_v14) = dinvCol (arg m c main_arg9) := by
  show StableHlo.after hostOps1 (W2 m ρ c) (Proc.devRef .tc main_v14) = _
  after_results <;> exact W2_v14 m ρ c

/-- The first bias as a row. -/
theorem W3_v26 : W3 m ρ c (Proc.devRef .tc main_v26) = biasRow (arg m c main_arg3) := by
  show StableHlo.after hostOps1 (W2 m ρ c) (Proc.devRef .tc main_v26) = _
  after_results
  rw [W2_arg3 m ρ c]
  rfl

/-- The propagation of region 0's output array. -/
theorem W3_v25 : W3 m ρ c (Proc.devRef .tc main_v25) = spread (arg m c main_arg9) (Y1 m ρ c) := by
  show StableHlo.after hostOps1 (W2 m ρ c) (Proc.devRef .tc main_v25) = _
  after_results_simp
  rw [W2_v5 m ρ c, W2_v6 m ρ c, W2_v15 m ρ c]
  rfl

/-! ## After region 1 -/

theorem W4_arg1 : W4 m ρ c (Proc.devRef .tc main_arg1) = arg m c main_arg1 :=
  (W4_of_ne m ρ c main_arg1 (by decide)).trans (W3_arg1 m ρ c)

theorem W4_arg5 : W4 m ρ c (Proc.devRef .tc main_arg5) = arg m c main_arg5 :=
  (W4_of_ne m ρ c main_arg5 (by decide)).trans (W3_arg5 m ρ c)

theorem W4_arg6 : W4 m ρ c (Proc.devRef .tc main_arg6) = arg m c main_arg6 :=
  (W4_of_ne m ρ c main_arg6 (by decide)).trans (W3_arg6 m ρ c)

theorem W4_arg7 : W4 m ρ c (Proc.devRef .tc main_arg7) = arg m c main_arg7 :=
  (W4_of_ne m ρ c main_arg7 (by decide)).trans (W3_arg7 m ρ c)

theorem W4_arg8 : W4 m ρ c (Proc.devRef .tc main_arg8) = arg m c main_arg8 :=
  (W4_of_ne m ρ c main_arg8 (by decide)).trans (W3_arg8 m ρ c)

theorem W4_v5 : W4 m ρ c (Proc.devRef .tc main_v5) = srcRaw (arg m c main_arg9) :=
  (W4_of_ne m ρ c main_v5 (by decide)).trans (W3_v5 m ρ c)

theorem W4_v6 : W4 m ρ c (Proc.devRef .tc main_v6) = dstRaw (arg m c main_arg9) :=
  (W4_of_ne m ρ c main_v6 (by decide)).trans (W3_v6 m ρ c)

/-- The normalisation column is an input window's array of region 1: left as found. -/
theorem W4_v14 : W4 m ρ c (Proc.devRef .tc main_v14) = dinvCol (arg m c main_arg9) :=
  (W4_arr m ρ c 1).trans ((((dat1 (V3 m ρ) c).arrAt_in 1 rfl _).trans (A_eq1 (V3 m ρ) c 1)).trans (W3_v14 m ρ c))

theorem W4_v27 : W4 m ρ c (Proc.devRef .tc main_v27) = Y2 m ρ c := W4_arr m ρ c 4

/-! ## After the third stretch (region 2's entry) -/

theorem W5_v14 : W5 m ρ c (Proc.devRef .tc main_v14) = dinvCol (arg m c main_arg9) := by
  show StableHlo.after hostOps2 (W4 m ρ c) (Proc.devRef .tc main_v14) = _
  after_results <;> exact W4_v14 m ρ c

/-- The second bias as a row. -/
theorem W5_v48 : W5 m ρ c (Proc.devRef .tc main_v48) = biasRow (arg m c main_arg5) := by
  show StableHlo.after hostOps2 (W4 m ρ c) (Proc.devRef .tc main_v48) = _
  after_results
  rw [W4_arg5 m ρ c]
  rfl

/-- The gate row. -/
theorem W5_v46 : W5 m ρ c (Proc.devRef .tc main_v46) = gate (arg m c main_arg1) (arg m c main_arg6) (arg m c main_arg7) := by
  show StableHlo.after hostOps2 (W4 m ρ c) (Proc.devRef .tc main_v46) = _
  after_results_simp
  rw [W4_arg1 m ρ c, W4_arg6 m ρ c, W4_arg7 m ρ c]
  rfl

/-- The context row. -/
theorem W5_v47 : W5 m ρ c (Proc.devRef .tc main_v47) = ctxBias (arg m c main_arg1) (arg m c main_arg8) := by
  show StableHlo.after hostOps2 (W4 m ρ c) (Proc.devRef .tc main_v47) = _
  after_results_simp
  rw [W4_arg1 m ρ c, W4_arg8 m ρ c]
  rfl

/-- The propagation of region 1's output array. -/
theorem W5_v37 : W5 m ρ c (Proc.devRef .tc main_v37) = spread (arg m c main_arg9) (Y2 m ρ c) := by
  show StableHlo.after hostOps2 (W4 m ρ c) (Proc.devRef .tc main_v37) = _
  after_results_simp
  rw [W4_v5 m ρ c, W4_v6 m ρ c, W4_v27 m ρ c]
  rfl

/-! ## After region 2 -/

/-- The result buffer ends at region 2's output array. -/
theorem W6_v49 : W6 m ρ c (Proc.devRef .tc main_v49) = (dat2 (V5 m ρ) c).arrAt 5 cfg2.N := W6_arr m ρ c 5

end Cert.KernelIdeal.KernChain

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.GcnForm.lean ====
/-
  A two-layer graph convolution with a gate, written once in each of the two arrangements that are compared.

  Nodes are `n < 50000`, features `f, k < 128`, and an edge list of 850000 entries gives each edge `e` a source row and
  a target row. An index array `sI` names, for edge `e`, the row `rowOf sI e` a gather reads (the index word read
  signed and clamped into the array); an index array `dI` names the row a scatter adds onto, and `inEdges dI n` is
  the set of edges whose target index reads exactly `n` (an index outside the array is dropped by the scatter).
  With `q n = 1/√(max (deg n) 1)` the symmetric normalisation of the graph:

  * the REFERENCE arrangement (`rOut`) weights every message by the edge's coefficient `q (source) · q (target)`
    after the dense projection: `rLayer a w (n, f) = 0 + ∑ e ∈ inEdges n, (∑ k, a (src e, k) · w (k, f)) · (q (src e) · q (tgt e))`;
  * the FOLDED arrangement (`kOut`) scales the projected rows by `q` of their own node before they are gathered, adds
    up unweighted, and scales the sum by `q n` afterwards; in the second layer the first scaling is moved in front of
    the projection.

  Between the layers sits a leaky rectifier, `v ↦ v` on one side of `0` and `c · v` on the other; the two
  arrangements cut at `0 < v` and at `0 ≤ v`, which differ only at `v = 0`, where both give `0`. At the end both
  add a bias row, multiply by a gate row `g` and add a context row `β`.
-/
import proofs.«143145_j42752104464516_2_alg».proof.Proof.LibRowOps

noncomputable section

open scoped BigOperators

namespace Cert.Gcn

open Idealize.ShloMosaic Idealize.ShloMosaic.ValueIdx Cert.Lib.RowOps

/-- The edges whose target index reads node `n`. -/
def inEdges (dI : IVec ⟨2, ![850000, 1]⟩ 32) (n : Fin 50000) : Finset (Fin 850000) :=
  Finset.univ.filter fun e => (dI (ix2 e 0)).toInt = (n.val : Int)

/-- The row an index array's entry `e` names when a gather reads it: signed, clamped into `[0, 49999]`. -/
def rowOf (sI : IVec ⟨2, ![850000, 1]⟩ 32) (e : Fin 850000) : Fin 50000 :=
  clampRow (N := 50000) (by decide) sI e

/-- The rectifier cut at `0 < v`. -/
def kAct (c : EReal) (v : EReal) : EReal := if 0 < v then v else c * v

/-- The rectifier cut at `0 ≤ v`. -/
def rAct (c : EReal) (v : EReal) : EReal := if 0 ≤ v then v else c * v

section Forms

variable (q : Fin 50000 → EReal) (sI dI dNI : IVec ⟨2, ![850000, 1]⟩ 32) (c : EReal)
  (x : Fin 50000 → Fin 128 → EReal) (w1 : Fin 128 → Fin 128 → EReal) (b1 : Fin 128 → EReal)
  (w2 : Fin 128 → Fin 128 → EReal) (b2 : Fin 128 → EReal) (g β : Fin 128 → EReal)

/-! ### The folded arrangement -/

/-- Layer 1: rows projected and scaled by their own `q`, added up over the in-edges, the sum scaled by `q n`. -/
def kLayer1 (n : Fin 50000) (f : Fin 128) : EReal :=
  (0 + ∑ e ∈ inEdges dI n, (∑ k : Fin 128, x (rowOf sI e) k * w1 k f) * q (rowOf sI e)) * q n

/-- The hidden rows, already scaled by their own `q` for the second layer. -/
def kHidden (n : Fin 50000) (k : Fin 128) : EReal :=
  kAct c (kLayer1 q sI dI x w1 n k + b1 k) * q n

/-- Layer 2: the scaled hidden rows projected, added up over the in-edges, the sum scaled by `q n`. -/
def kLayer2 (n : Fin 50000) (f : Fin 128) : EReal :=
  (0 + ∑ e ∈ inEdges dI n, ∑ k : Fin 128, kHidden q sI dI c x w1 b1 (rowOf sI e) k * w2 k f) * q n

/-- The folded arrangement's result. -/
def kOut (n : Fin 50000) (f : Fin 128) : EReal :=
  (kLayer2 q sI dI c x w1 b1 w2 n f + b2 f) * g f + β f

/-! ### The reference arrangement -/

/-- One convolution without its bias: the projected source rows weighted by `q (source) · q (target)`, added up over the in-edges. -/
def rLayer (a : Fin 50000 → Fin 128 → EReal) (w : Fin 128 → Fin 128 → EReal) (n : Fin 50000) (f : Fin 128) : EReal :=
  0 + ∑ e ∈ inEdges dI n, (∑ k : Fin 128, a (rowOf sI e) k * w k f) * (q (rowOf sI e) * q (rowOf dNI e))

/-- The hidden rows. -/
def rHidden (n : Fin 50000) (k : Fin 128) : EReal :=
  rAct c (rLayer q sI dI dNI x w1 n k + b1 k)

/-- The reference arrangement's result. -/
def rOut (n : Fin 50000) (f : Fin 128) : EReal :=
  (rLayer q sI dI dNI (rHidden q sI dI dNI c x w1 b1) w2 n f + b2 f) * g f + β f

end Forms

end Cert.Gcn

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibPropagate.lean ====
/-
  A graph propagation step commutes with a product by a matrix on the feature axis.

  One propagation step on an `[N, F]` array `h` is `h' (n, f) = ∑ { e : col e = n }  h (row e, f) · ν e`: a gather of whole
  rows (`row e`, clamped), a scale by the edge's coefficient `ν e`, and an accumulating scatter onto the rows `col e`
  (`hop`, over the dimension numbers of `RowOps`; `hop_apply` reads it at an index). The rows an edge reads and
  writes depend on the two index arrays only, never on the column `f`, so the step acts on each column separately
  and is linear in it. Hence, for REAL entries `r`, real coefficients `ν` and a real `[K, J]` matrix `w`,

      hop (r · w)  =  (hop r) · w          (`hop_contract`, with `hop_real`: the step of a real array is real)

  where `r · w` is the matrix product `contract r w (n, j) = ∑ k, r (n, k) · w (k, j)`: propagating the `J`-wide
  product is the product of the propagated `K`-wide array. The law under it is `RealSum.step_comm`; reality of the
  entries is what makes the product distribute over the extended reals' sums.

  Also here: the two broadcasts a printed step is made of, read at an index (`zeros_apply`: the zero array the
  scatter accumulates into; `rowBroadcast_apply`: an `[E]` array of coefficients spread along the columns of `[E, F]`).
-/
import proofs.«143145_j42752104464516_2_alg».proof.Proof.LibRowOps
import proofs.«143145_j42752104464516_2_alg».proof.Proof.LibRealSum
import Idealize.ShloMosaic.Lib.Pipeline.Value
import Idealize.ShloMosaic.PureOps.Ideal.Laws

noncomputable section

open scoped BigOperators

namespace Cert.Lib.Propagate

open Idealize.ShloMosaic Idealize.ShloMosaic.ValueIdx Cert.Lib.RowOps Cert.Lib.RealSum

variable {N E F K J : Nat}

/-- One propagation step at the ideal values: rows gathered by `rowI`, scaled entry by entry by `nB`, accumulated by
    `colI` into `zArr`. -/
def hop (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) :
    (⟨2, ![N, F]⟩ : Shape).Idx → EReal :=
  Ideal.hostScatterAdd (rowScatter N E F wfS) zArr colI
    (fun j => h ((rowGather N E F wfG).operandIdx j rowI) * nB j)

/-- The step read at `(n, f)`: what was there plus, over the edges `e` whose target reads `n`, the source row's entry in
    column `f` times the edge's coefficient there. -/
theorem hop_apply (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) (n : Fin N) (f : Fin F) :
    hop wfG wfS rowI colI zArr nB h (ix2 n f)
      = zArr (ix2 n f) + ∑ e ∈ Finset.univ.filter (fun e : Fin E => (colI (ix2 e 0)).toInt = (n.val : Int)),
          h (ix2 (clampRow hN rowI e) f) * nB (ix2 e f) := by
  unfold hop
  rw [scatterAdd_rows_apply]
  refine congrArg (zArr (ix2 n f) + ·) (Finset.sum_congr rfl fun e _ => ?_)
  show h ((rowGather N E F wfG).operandIdx (ix2 e f) rowI) * nB (ix2 e f) = _
  rw [rowGather_operandIdx hN]

/-- The step on real entries, as a real array. -/
def stepReal (hN : 0 < N) (rowI colI : IVec ⟨2, ![E, 1]⟩ 32) (ν : Fin E → ℝ)
    (r : (⟨2, ![N, F]⟩ : Shape).Idx → ℝ) : (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F)) * ν e

/-- The matrix product of a real `[N, K]` array with a real `[K, J]` matrix. -/
def contract (r : (⟨2, ![N, K]⟩ : Shape).Idx → ℝ) (w : (⟨2, ![K, J]⟩ : Shape).Idx → ℝ) :
    (⟨2, ![N, J]⟩ : Shape).Idx → ℝ :=
  fun y => ∑ k : Fin K, r (ix2 (⟨(y 0).val, idx2_lt0 y⟩ : Fin N) k) * w (ix2 k (⟨(y 1).val, idx2_lt1 y⟩ : Fin J))

/-- The coercion of an entry of the product is the sum of the coerced products. -/
theorem contract_coe (r : (⟨2, ![N, K]⟩ : Shape).Idx → ℝ) (w : (⟨2, ![K, J]⟩ : Shape).Idx → ℝ) (n : Fin N) (j : Fin J) :
    ((contract r w (ix2 n j) : ℝ) : EReal) = ∑ k : Fin K, (r (ix2 n k) : EReal) * (w (ix2 k j) : EReal) := by
  show ((∑ k : Fin K, r (ix2 n k) * w (ix2 k j) : ℝ) : EReal) = _
  rw [coe_sum]
  simp only [EReal.coe_mul]

/-- The step of a real array is the real array `stepReal`. -/
theorem hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (hz : ∀ i, zArr i = 0) (ν : Fin E → ℝ)
    (hn : ∀ e f, nB (ix2 e f) = (ν e : EReal)) (r : (⟨2, ![N, F]⟩ : Shape).Idx → ℝ) :
    hop wfG wfS rowI colI zArr nB (fun x => (r x : EReal)) = fun x => ((stepReal hN rowI colI ν r x : ℝ) : EReal) := by
  funext x
  obtain ⟨n, f, rfl⟩ : ∃ (n : Fin N) (f : Fin F), x = ix2 n f := ⟨x 0, x 1, eq_ix2 x⟩
  rw [hop_apply hN, hz]
  simp only [hn]
  exact step_real _ (fun e => r (ix2 (clampRow hN rowI e) f)) ν

/-- PROPAGATION COMMUTES WITH THE PRODUCT: the step of the `J`-wide product `r · w` is the product with `w` of the step
    of the `K`-wide array `r` — the same index arrays and coefficients on both widths. -/
theorem hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (rowI colI : IVec ⟨2, ![E, 1]⟩ 32) (zArr : (⟨2, ![N, J]⟩ : Shape).Idx → EReal)
    (nB : (⟨2, ![E, J]⟩ : Shape).Idx → EReal) (hz : ∀ i, zArr i = 0) (ν : Fin E → ℝ)
    (hn : ∀ e j, nB (ix2 e j) = (ν e : EReal))
    (r : (⟨2, ![N, K]⟩ : Shape).Idx → ℝ) (w : (⟨2, ![K, J]⟩ : Shape).Idx → ℝ) :
    hop wfG wfS rowI colI zArr nB (fun y => ((contract r w y : ℝ) : EReal))
      = fun y => ((contract (stepReal hN rowI colI ν r) w y : ℝ) : EReal) := by
  funext y
  obtain ⟨n, j, rfl⟩ : ∃ (n : Fin N) (j : Fin J), y = ix2 n j := ⟨y 0, y 1, eq_ix2 y⟩
  rw [hop_apply hN, hz]
  simp only [hn]
  exact step_comm _ (fun e k => r (ix2 (clampRow hN rowI e) k)) ν (fun k => w (ix2 k j))

/-! ## The step as a program prints it

A printed step is `Host.scatterAdd ds zArr colI (mulf (Host.gather dg h rowI) nB)` over the program's own dimension
records; when those are the row records of `RowOps` it is `hop`. Stated over arbitrary records equal to them, so that at
a program's literal shapes the printed term is met as it stands. -/

/-- The printed step is `hop`. -/
theorem host_hop_eq
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (h : FVec Ideal ⟨2, ![N, F]⟩ .f32) :
    Host.scatterAdd ds zArr colI (mulf (Host.gather dg h rowI) nB) = hop wfG wfS rowI colI zArr nB h := by
  subst hdg hds
  rfl

/-- The printed step of a real array is the real array `stepReal`. -/
theorem host_hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (hz : ∀ i, zArr i = 0) (ν : Fin E → ℝ) (hn : ∀ e f, nB (ix2 e f) = (ν e : EReal))
    (r : (⟨2, ![N, F]⟩ : Shape).Idx → ℝ) :
    Host.scatterAdd ds zArr colI (mulf (Host.gather dg (fun x => (r x : EReal)) rowI) nB)
      = fun x => ((stepReal hN rowI colI ν r x : ℝ) : EReal) :=
  (host_hop_eq wfG wfS dg ds hdg hds rowI colI zArr nB _).trans (hop_real hN wfG wfS rowI colI zArr nB hz ν hn r)

/-- The printed step of the `J`-wide product `r · w` is the product with `w` of the step of `r`. -/
theorem host_hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (dg : GatherDims ⟨2, ![N, J]⟩ ⟨2, ![E, 1]⟩ ⟨2, ![E, J]⟩) (ds : ScatterDims ⟨2, ![N, J]⟩ ⟨2, ![E, 1]⟩ ⟨2, ![E, J]⟩)
    (hdg : dg = rowGather N E J wfG) (hds : ds = rowScatter N E J wfS)
    (rowI colI : IVec ⟨2, ![E, 1]⟩ 32) (zArr : FVec Ideal ⟨2, ![N, J]⟩ .f32) (nB : FVec Ideal ⟨2, ![E, J]⟩ .f32)
    (hz : ∀ i, zArr i = 0) (ν : Fin E → ℝ) (hn : ∀ e j, nB (ix2 e j) = (ν e : EReal))
    (r : (⟨2, ![N, K]⟩ : Shape).Idx → ℝ) (w : (⟨2, ![K, J]⟩ : Shape).Idx → ℝ) :
    Host.scatterAdd ds zArr colI (mulf (Host.gather dg (fun y => ((contract r w y : ℝ) : EReal)) rowI) nB)
      = fun y => ((contract (stepReal hN rowI colI ν r) w y : ℝ) : EReal) :=
  (host_hop_eq wfG wfS dg ds hdg hds rowI colI zArr nB _).trans (hop_contract hN wfG wfS rowI colI zArr nB hz ν hn r w)

/-- The zero array an accumulating scatter starts from: the f32 zero word broadcast to any shape reads `0`. -/
theorem zeros_apply {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 := by
  rw [broadcastInDim_apply _ h _ i ix0 (fun a => a.elim0)]
  exact Ideal.ofBits_zero_f32

/-- An `[E]` array spread over the columns of `[E, F]` (through `[E, 1]`) reads, at `(e, f)`, its entry `e`. -/
theorem rowBroadcast_apply {α : Type} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, F]⟩ (![0, 1] : Fin 2 → Fin 2))
    (x : (⟨1, ![E]⟩ : Shape).Idx → α) (e : Fin E) (f : Fin F) :
    broadcastInDim ⟨2, ![E, F]⟩ (![0, 1] : Fin 2 → Fin 2) h2 (broadcastInDim ⟨2, ![E, 1]⟩ (![0] : Fin 1 → Fin 2) h1 x) (ix2 e f)
      = x (ix1 e) := by
  rw [broadcastInDim_apply _ h2 _ (ix2 e f) (ix2 e (0 : Fin 1)) (fun a => match a with
    | ⟨0, _⟩ => by show e.val = if E = 1 then 0 else e.val; rw [if_neg hE]
    | ⟨1, _⟩ => by show 0 = if (1 : Nat) = 1 then 0 else f.val; rw [if_pos rfl])]
  rw [broadcastInDim_apply _ h1 _ (ix2 e (0 : Fin 1)) (ix1 e) (fun a => match a with
    | ⟨0, _⟩ => by show e.val = if E = 1 then 0 else e.val; rw [if_neg hE])]

end Cert.Lib.Propagate

end
-- ==== Proof.GcnLaws.lean ====
/-
  The folded arrangement of the two-layer graph convolution equals the reference arrangement.

  On the extended reals a product does not distribute over a sum in general (`⊤ + ⊥`), but a product by a
  NONNEGATIVE FINITE number does (`EReal.right_distrib_of_nonneg_of_ne_top`), so such a factor moves in and out of
  any finite sum (`sum_mul_scale`). The graph's normalisation `q n = 1/√(max (deg n) 1)` is such a number at every
  node, and that is all the comparison needs — no entry of the features or the weights has to be finite:

  * a sum over the in-edges of `n` whose terms carry `q (source)`, scaled afterwards by `q n`, is the sum of the terms
    carrying `q (source) · q (target)`, because every in-edge's target IS `n` (`fold_scale`, `kLayer1_eq`);
  * a row scaled by its own `q` before the dense projection is the projected row scaled afterwards
    (`scale_contract`), which moves the second layer's inner scaling across the projection (`kLayer2_eq`);
  * the two rectifiers agree everywhere: they differ only in which branch takes `v = 0`, and `c · 0 = 0` (`kAct_eq_rAct`).
-/
import proofs.«143145_j42752104464516_2_alg».proof.Proof.GcnForm

noncomputable section

open scoped BigOperators

namespace Cert.Gcn

open Idealize.ShloMosaic Idealize.ShloMosaic.ValueIdx Cert.Lib.RowOps

/-- A nonnegative finite extended real: a factor that distributes over every sum. -/
def IsScale (x : EReal) : Prop := 0 ≤ x ∧ x ≠ ⊤

/-- A nonnegative real is such a factor. -/
theorem IsScale.coe {r : ℝ} (hr : 0 ≤ r) : IsScale (r : EReal) := ⟨EReal.coe_nonneg.mpr hr, EReal.coe_ne_top r⟩

/-- A nonnegative finite factor moves into a finite sum. -/
theorem sum_mul_scale {ι : Type*} (S : Finset ι) (t : ι → EReal) {x : EReal} (hx : IsScale x) :
    (∑ i ∈ S, t i) * x = ∑ i ∈ S, t i * x := by
  classical
  induction S using Finset.induction_on with
  | empty => simp
  | insert a S ha ih =>
    rw [Finset.sum_insert ha, Finset.sum_insert ha, EReal.right_distrib_of_nonneg_of_ne_top hx.1 hx.2, ih]

/-- A sum of terms each carrying a factor `p e`, scaled afterwards by a nonnegative finite `y`, is the sum of the terms
    carrying `p e · y`. -/
theorem fold_scale {ι : Type*} (S : Finset ι) (T p : ι → EReal) {y : EReal} (hy : IsScale y) :
    (0 + ∑ e ∈ S, T e * p e) * y = 0 + ∑ e ∈ S, T e * (p e * y) := by
  rw [zero_add, zero_add, sum_mul_scale S _ hy]
  exact Finset.sum_congr rfl fun e _ => mul_assoc _ _ _

/-- A row scaled by a nonnegative finite factor and then contracted with a column is the contracted row scaled. -/
theorem scale_contract {κ : Type*} [Fintype κ] (a w : κ → EReal) {y : EReal} (hy : IsScale y) :
    ∑ k, (a k * y) * w k = (∑ k, a k * w k) * y := by
  rw [sum_mul_scale _ _ hy]
  exact Finset.sum_congr rfl fun k _ => mul_right_comm _ _ _

/-- The two rectifiers are one function: at `v = 0`, the only place their cuts differ, `c · 0 = 0`. -/
theorem kAct_eq_rAct (c v : EReal) : kAct c v = rAct c v := by
  unfold kAct rAct
  by_cases h : 0 < v
  · rw [if_pos h, if_pos h.le]
  · rw [if_neg h]
    by_cases h0 : 0 ≤ v
    · have hv : v = 0 := le_antisymm (not_lt.mp h) h0
      rw [if_pos h0, hv, mul_zero]
    · rw [if_neg h0]

section Agree

variable (q : Fin 50000 → EReal) (hq : ∀ n, IsScale (q n)) (sI dI dNI : IVec ⟨2, ![850000, 1]⟩ 32)
  (hd : ∀ (e : Fin 850000) (n : Fin 50000), (dI (ix2 e 0)).toInt = (n.val : Int) → rowOf dNI e = n)
  (c : EReal) (x : Fin 50000 → Fin 128 → EReal) (w1 : Fin 128 → Fin 128 → EReal) (b1 : Fin 128 → EReal)
  (w2 : Fin 128 → Fin 128 → EReal) (b2 : Fin 128 → EReal) (g β : Fin 128 → EReal)

include hq hd

/-- Every in-edge of `n` has target `n`, so the reference's coefficient on it is `q (source) · q n`. -/
theorem rLayer_eq (a : Fin 50000 → Fin 128 → EReal) (w : Fin 128 → Fin 128 → EReal) (n : Fin 50000) (f : Fin 128) :
    rLayer q sI dI dNI a w n f
      = 0 + ∑ e ∈ inEdges dI n, (∑ k : Fin 128, a (rowOf sI e) k * w k f) * (q (rowOf sI e) * q n) := by
  unfold rLayer
  refine congrArg (0 + ·) (Finset.sum_congr rfl fun e he => ?_)
  rw [hd e n (Finset.mem_filter.mp he).2]

/-- Layer 1 of the folded arrangement is the reference's first convolution (before its bias). -/
theorem kLayer1_eq (n : Fin 50000) (f : Fin 128) :
    kLayer1 q sI dI x w1 n f = rLayer q sI dI dNI x w1 n f := by
  rw [rLayer_eq q hq sI dI dNI hd]
  exact fold_scale _ _ _ (hq n)

/-- The folded arrangement's hidden rows are the reference's, scaled by their own `q`. -/
theorem kHidden_eq (n : Fin 50000) (k : Fin 128) :
    kHidden q sI dI c x w1 b1 n k = rHidden q sI dI dNI c x w1 b1 n k * q n := by
  unfold kHidden rHidden
  rw [kLayer1_eq q hq sI dI dNI hd, kAct_eq_rAct]

/-- Layer 2 of the folded arrangement is the reference's second convolution (before its bias). -/
theorem kLayer2_eq (n : Fin 50000) (f : Fin 128) :
    kLayer2 q sI dI c x w1 b1 w2 n f = rLayer q sI dI dNI (rHidden q sI dI dNI c x w1 b1) w2 n f := by
  rw [rLayer_eq q hq sI dI dNI hd]
  unfold kLayer2
  have h : ∀ e : Fin 850000, (∑ k : Fin 128, kHidden q sI dI c x w1 b1 (rowOf sI e) k * w2 k f)
      = (∑ k : Fin 128, rHidden q sI dI dNI c x w1 b1 (rowOf sI e) k * w2 k f) * q (rowOf sI e) := fun e => by
    rw [← scale_contract _ _ (hq (rowOf sI e))]
    exact Finset.sum_congr rfl fun k _ => by rw [kHidden_eq q hq sI dI dNI hd]
  simp only [h]
  exact fold_scale _ _ _ (hq n)

/-- THE COMPARISON: the folded arrangement's result is the reference arrangement's, at every node and feature. -/
theorem kOut_eq_rOut (n : Fin 50000) (f : Fin 128) :
    kOut q sI dI c x w1 b1 w2 b2 g β n f = rOut q sI dI dNI c x w1 b1 w2 b2 g β n f := by
  unfold kOut rOut
  rw [kLayer2_eq q hq sI dI dNI hd]

end Agree

end Cert.Gcn

end
-- ==== Proof.KernHost.lean ====
/-
  The host pieces of the idealized kernel's program, read at an entry.

  * `spread`, the unweighted propagation between the regions (a gather of whole rows followed by an accumulating row
    scatter into zeros): at `(n, f)` it is zero plus the sum, over the edges whose target index reads `n`, of the source
    row's entry in column `f` (`spread_apply`);
  * the normalisation column and the bias rows are re-layings of flat arrays (`dinvCol_apply`, `biasRow_apply`);
  * the normalisation `1/√(max (deg n) 1)` is a NONNEGATIVE FINITE number at every node: the degree is zero plus a finite
    sum of ones, a real; `max (deg n) 1` is a positive real; its reciprocal square root is `(√·)⁻¹ ≥ 0` (`dinv_isScale`)
    — the one property of it the comparison of the two arrangements uses;
  * an edge whose scatter index reads node `n` has a nonnegative target index, which wrapping leaves alone and which is
    already inside the array, so the row a gather would read for it is `n` too (`target_row`).
-/
import proofs.«143145_j42752104464516_2_alg».proof.Proof.KernDefs
import proofs.«143145_j42752104464516_2_alg».proof.Proof.GcnForm
import proofs.«143145_j42752104464516_2_alg».proof.Proof.LibRowOps
import proofs.«143145_j42752104464516_2_alg».proof.Proof.LibPropagate
import Idealize.ShloMosaic.Lib.Pipeline.Value
import Idealize.ShloMosaic.Lib.ValueLayout
import Idealize.ShloMosaic.Lib.ValueIdx
import proofs.«143145_j42752104464516_2_alg».proof.Proof.GcnLaws
import proofs.«143145_j42752104464516_2_alg».proof.Proof.LibRealSum
set_option maxRecDepth 16384

noncomputable section

open scoped BigOperators

namespace Cert.KernelIdeal.KernHost

open Idealize.ShloMosaic Idealize.ShloMosaic.TcCoe Idealize.ShloMosaic.ValueIdx Idealize.SL.Sem
open Cert.KernelIdeal Cert.KernelIdeal.KernDefs
open Cert.Lib.RowOps

variable [Cert.KernelIdeal.Facts]

/-! ## The propagation and the re-layings -/

/-- A gather of whole rows followed by an accumulating row scatter, over any dimension records equal to the row
    records: the scatter of the gathered rows, each read through the gather's index map. -/
theorem host_spread_eq {N E F : Nat}
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (h : FVec Ideal ⟨2, ![N, F]⟩ .f32) :
    Host.scatterAdd ds zArr colI (Host.gather dg h rowI)
      = Ideal.hostScatterAdd (rowScatter N E F wfS) zArr colI (fun j => h ((rowGather N E F wfG).operandIdx j rowI)) := by
  subst hdg hds
  rfl

/-- The unweighted propagation at `(n, f)`: zero plus the sum, over the edges whose target index reads `n`, of the source
    row's entry in column `f`. -/
theorem spread_apply (a9 : IVec S2x800000 32) (y : FVec Ideal S50000x128 .f32) (n : Fin 50000) (f : Fin 128) :
    spread a9 y (ix2 n f)
      = 0 + ∑ e ∈ Cert.Gcn.inEdges (col (dstRaw a9)) n, y (ix2 (Cert.Gcn.rowOf (col (wrap (srcRaw a9))) e) f) := by
  unfold spread
  rw [host_spread_eq Facts₀.gather_S50000x128_S850000x1_S850000x128_1_0_n_n_0_1_1128_wf
      Facts₀.scatter_S50000x128_S850000x1_S850000x128_1_0_0_1_wf
      gather_S50000x128_S850000x1_S850000x128_1_0_n_n_0_1_1128 scatter_S50000x128_S850000x1_S850000x128_1_0_0_1 rfl rfl,
    scatterAdd_rows_apply, Cert.Lib.Propagate.zeros_apply]
  refine congrArg (0 + ·) (Finset.sum_congr rfl fun e _ => ?_)
  rw [rowGather_operandIdx (show 0 < 50000 by decide)]
  rfl

/-- The normalisation column at row `n` is the normalisation at node `n`. -/
theorem dinvCol_apply (a9 : IVec S2x800000 32) (n : Fin 50000) : dinvCol a9 (ix2 n 0) = dinv a9 (ix1 n) := by
  unfold dinvCol
  exact shapeCast_apply _ _ _ _ (by
    rw [Shape.rowMajor_val_two, Shape.rowMajor_val_one]
    show n.val = n.val * 1 + 0
    omega)

/-- A bias laid out as a row, at column `f`. -/
theorem biasRow_apply (b : FVec Ideal S128 .f32) (f : Fin 128) : biasRow b (ix2 0 f) = b (ix1 f) := by
  unfold biasRow
  exact shapeCast_a_1a_apply _ _ 0 f

/-! ## The normalisation is a nonnegative finite number at every node -/

/-- The f32 word `0x3F800000` is the real `1`. -/
theorem one_word : Ideal.ofBits .f32 0x3F800000#32 = ((1 : ℝ) : EReal) := by
  have h : Ideal.ofBits .f32 0x3F800000#32 = 1 := by
    simp [Ideal.ofBits, Ideal.ieee, -EReal.coe_mul]; norm_num
  rw [h, EReal.coe_one]

/-- The ideal reciprocal square root of `max x 1`, for a real `x`, is a nonnegative real: `max x 1` is a positive real `s`,
    and its reciprocal square root is `(√s)⁻¹ ≥ 0`. -/
theorem isScale_rsqrt_max {x : EReal} (hx : Cert.Lib.RealSum.IsReal x) :
    Cert.Gcn.IsScale (Ideal.rsqrt (max x ((1 : ℝ) : EReal))) := by
  obtain ⟨a, rfl⟩ := hx
  have hm : max (a : EReal) ((1 : ℝ) : EReal) = ((max a 1 : ℝ) : EReal) :=
    (EReal.coe_strictMono.monotone.map_max (a := a) (b := 1)).symm
  have hpos : 0 < max a 1 := lt_of_lt_of_le one_pos (le_max_right a 1)
  have hr : Ideal.rsqrt ((max a 1 : ℝ) : EReal) = (((Real.sqrt (max a 1))⁻¹ : ℝ) : EReal) := by
    show (if max a 1 < 0 then (⊥ : EReal) else if max a 1 = 0 then ⊤ else (((Real.sqrt (max a 1))⁻¹ : ℝ) : EReal)) = _
    rw [if_neg (not_lt.mpr hpos.le), if_neg hpos.ne']
  rw [hm, hr]
  exact Cert.Gcn.IsScale.coe (inv_nonneg.mpr (Real.sqrt_nonneg _))

/-- A scalar spread over any shape reads the scalar everywhere. -/
theorem splat_apply {α : Type} {t : Shape} (h : (⟨0, ![]⟩ : Shape).BroadcastsInDim t (![] : Fin 0 → Fin t.rank))
    (x : (⟨0, ![]⟩ : Shape).Idx → α) (i : t.Idx) :
    broadcastInDim t (![] : Fin 0 → Fin t.rank) h x i = x ix0 :=
  broadcastInDim_apply _ h _ i ix0 (fun a => a.elim0)

/-- The degree of every node is a real: zero plus a finite sum of ones. -/
theorem deg_real (a9 : IVec S2x800000 32) (i : S50000.Idx) : Cert.Lib.RealSum.IsReal (deg a9 i) := by
  unfold deg
  refine Cert.Lib.RealSum.IsReal.host_scatterAdd _ _ _ _ (fun i => ?_) (fun j => ?_) i
  · rw [Cert.Lib.Propagate.zeros_apply]; exact Cert.Lib.RealSum.IsReal.zero
  · rw [splat_apply, constant_apply, one_word]; exact ⟨1, rfl⟩

/-- The host's reciprocal square root of an array, at an entry. -/
theorem host_rsqrt_apply {s : Shape} {φ : FTy} (v : FVec Ideal s φ) (i : s.Idx) : Host.rsqrt v i = Ideal.rsqrt (v i) := rfl

/-- The normalisation `1/√(max (deg n) 1)` is a nonnegative finite number at every node. -/
theorem dinv_isScale (a9 : IVec S2x800000 32) (n : Fin 50000) : Cert.Gcn.IsScale (dinv a9 (ix1 n)) := by
  unfold dinv
  rw [host_rsqrt_apply, maximumf_apply, splat_apply, constant_apply, one_word]
  exact isScale_rsqrt_max (deg_real a9 _)

/-! ## An in-edge's target row -/

/-- An index list laid out as a column reads, at row `e`, its entry `e`. -/
theorem col_apply (s : IVec S850000 32) (e : Fin 850000) : col s (ix2 e 0) = s (ix1 e) := by
  unfold col
  exact broadcastInDim_apply _ _ _ (ix2 e 0) (ix1 e) (fun a => match a with
    | ⟨0, _⟩ => by show e.val = if (850000 : Nat) = 1 then 0 else e.val; rw [if_neg (by decide)])

/-- Wrapping leaves a nonnegative index alone. -/
theorem wrap_of_nonneg (s : IVec S850000 32) (i : S850000.Idx) (h : 0 ≤ (s i).toInt) : wrap s i = s i := by
  unfold wrap
  rw [select_apply]
  show Scalar.select (IntOp.cmpi .slt (s i) (broadcastInDim S850000 ![] Facts₀.bcast_S_S850000 (constantI S_ 32 0#32) i)) _ _ = _
  rw [splat_apply, constantI_apply]
  have hs : IntOp.cmpi .slt (s i) 0#32 = 0#1 := by
    show BitVec.ofBool ((s i).slt 0#32) = 0#1
    have : (s i).slt 0#32 = false := by
      rw [BitVec.slt_eq_decide]
      simp only [BitVec.toInt_zero, decide_eq_false_iff_not, not_lt]
      exact h
    rw [this]; rfl
  rw [hs]
  exact select_zero _ _

/-- If the scatter's index for edge `e` reads node `n`, then the wrapped index a gather reads names the same row `n`:
    a nonnegative index is not wrapped, and `n` is already inside the array. -/
theorem target_row (a9 : IVec S2x800000 32) (e : Fin 850000) (n : Fin 50000)
    (h : (col (dstRaw a9) (ix2 e 0)).toInt = (n.val : Int)) :
    Cert.Gcn.rowOf (col (wrap (dstRaw a9))) e = n := by
  rw [col_apply] at h
  refine Fin.ext ?_
  show min (col (wrap (dstRaw a9)) (ix2 e 0)).toInt.toNat (50000 - 1) = n.val
  rw [col_apply, wrap_of_nonneg _ _ (by rw [h]; exact Int.natCast_nonneg _), h]
  have := n.isLt
  omega

end Cert.KernelIdeal.KernHost

end
-- ==== Proof.KernBlockOps.lean ====
/-
  Layout operations of a rank-2 block read at an entry.

  Inside a tile of rows, a per-row coefficient arrives as a one-column block and a per-feature row
  (a bias, a gate, a context row) as a one-row block; before they meet the tile in a pointwise
  operation each is stretched to the tile's shape. Read at entry `(p, q)` the stretched column is the
  column's entry of row `p`, and the stretched row is the row's entry of column `q`: the stretched
  axis has extent one, so its only coordinate is `0`.
-/
import Idealize.ShloMosaic.Lib.Pipeline.Value
import Idealize.ShloMosaic.Lib.ValueIdx

noncomputable section

namespace Cert.BlockOps

open Idealize.ShloMosaic Idealize.ShloMosaic.ValueIdx

/-- The zero offsets of a rank-2 access, as the constant function. -/
theorem zeros2 : (![0, 0] : Fin 2 → Nat) = fun _ => 0 := funext fun a => by fin_cases a <;> rfl

variable {α : Type} {A B : Nat}

/-- A one-column block stretched along the columns: entry `(p, q)` is the column's entry of row `p`.
    (When the block has a single row that row is row `0` either way.) -/
theorem broadcastTo_col_apply (x : (⟨2, ![A, 1]⟩ : Shape).Idx → α)
    (h : (⟨2, ![A, 1]⟩ : Shape).Broadcasts ⟨2, ![A, B]⟩) (p : Fin A) (q : Fin B) :
    broadcastTo ⟨2, ![A, B]⟩ x h (ix2 p q) = x (ix2 p 0) :=
  broadcastTo_apply x h (ix2 p q) (ix2 p 0) fun a => by
    match a with
    | ⟨0, _⟩ =>
      show p.val = if A = 1 then 0 else p.val
      split
      · have := p.isLt; omega
      · rfl
    | ⟨1, _⟩ => rfl

/-- A one-row block stretched along the rows: entry `(p, q)` is the row's entry of column `q`.
    (When the block has a single column that column is column `0` either way.) -/
theorem broadcastTo_row_apply (x : (⟨2, ![1, B]⟩ : Shape).Idx → α)
    (h : (⟨2, ![1, B]⟩ : Shape).Broadcasts ⟨2, ![A, B]⟩) (p : Fin A) (q : Fin B) :
    broadcastTo ⟨2, ![A, B]⟩ x h (ix2 p q) = x (ix2 0 q) :=
  broadcastTo_apply x h (ix2 p q) (ix2 0 q) fun a => by
    match a with
    | ⟨0, _⟩ => rfl
    | ⟨1, _⟩ =>
      show q.val = if B = 1 then 0 else q.val
      split
      · have := q.isLt; omega
      · rfl

end Cert.BlockOps

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.KernRegion0.lean ====
/-
  The first tiled region of the kernel, in closed form.

  The region walks the 50000 node rows in ten tiles of 5000. For a tile it reads the tile's rows of the
  input features `x` and of the per-row coefficient column `q`, and the whole 128 × 128 weight matrix
  `w`. What it writes to row `n`, column `f` of its output is the row's product with the weight matrix,
  scaled by the row's own coefficient:

      (∑ k < 128, x (n, k) · w (k, f)) · q (n).

  At the ideal values the change of format in front of the matrix unit is the identity and the product
  into a zero accumulator is the plain sum over the contracted axis; the stretched coefficient column
  reads row `p` of its block. Tile `t`'s row `p` is the array's row `5000 · t + p`, the weight matrix is
  the same whole block at every tile, and the ten tiles cover the array: row `n` lies in tile `n / 5000`.
-/
import proofs.«143145_j42752104464516_2_alg».proof.Proof.Gen.KernelIdeal.Frame
import proofs.«143145_j42752104464516_2_alg».proof.Proof.KernBlockOps
import proofs.«143145_j42752104464516_2_alg».proof.Proof.LibPlainDot
import Idealize.ShloMosaic.Lib.Pipeline.Value
import Idealize.ShloMosaic.Lib.ValueIdx

set_option maxRecDepth 16384

noncomputable section

open scoped BigOperators

namespace Cert.KernelIdeal.RegionVal

open Idealize.ShloMosaic Idealize.ShloMosaic.TcCoe Idealize.ShloMosaic.ValueIdx Idealize.SL.Sem
open Idealize.ShloMosaic.Pipeline (Dat)
open Cert.KernelIdeal Cert.KernelIdeal.Gen Cert.BlockOps

/-! ## The tile's arithmetic at an entry -/

/-- The tile's matrix product contracts the left operand's columns against the right operand's rows. -/
theorem plain_dot0 : Cert.PlainDot.IsPlain dot_S5000x128_S128x128_S5000x128_1_0_0_1_n_n :=
  ⟨rfl, rfl, rfl, rfl, rfl, rfl⟩

/-- The tile's result at entry `(p, q)`: row `p` of the feature block times column `q` of the weight
    matrix, scaled by the coefficient of row `p`. -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p 0) := by
  unfold k0_pay1
  simp only [shapeCast_self]
  rw [mulf_apply, broadcastTo_col_apply]
  congr 1
  exact (Ideal.matmul_constant_zero_apply _ none _ _ (ix2 p q)).trans
    (Cert.PlainDot.sum_contr _ plain_dot0 _ _ p q)

/-! ## The tiles: which rows of the arrays a tile holds -/

variable (V : (c : Dev nD) → (b : Ref sig .tc) → Buf (Elt Ideal) ((c : Thread nD τ).loc b)) (c : Dev nD)

/-- The printed index maps, decided over the ten grid points: the row-tiled windows (the features, the
    coefficient column, the output) are at block `(t, 0)` at point `t`, the weight matrix at block
    `(0, 0)` throughout. -/
theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Tile `t` of the features: its entry `(p, k)` is the array's entry at row `5000 · t + p`, column `k`. -/
theorem feat0_apply (t : Fin cfg0.N) (p : Fin 5000) (k : Fin 128) (n : Fin 50000) (hn : n.val = t.val * 5000 + p.val) :
    (iblk0 (F := Ideal) V c 0 t : Vec Ideal S5000x128 .f32) (ix2 p k) = (V c main_arg0 : S50000x128.Idx → EReal) (ix2 n k) := by
  obtain ⟨⟨e0, e1⟩, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The one block of the weight matrix is the whole matrix, at every point. -/
theorem weight0_apply (t : Fin cfg0.N) (k q : Fin 128) :
    (iblk0 (F := Ideal) V c 1 t : Vec Ideal S128x128 .f32) (ix2 k q) = (V c main_arg2 : S128x128.Idx → EReal) (ix2 k q) := by
  obtain ⟨-, ⟨e0, e1⟩, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Tile `t` of the coefficient column: its entry `(p, 0)` is the coefficient of row `5000 · t + p`. -/
theorem coef0_apply (t : Fin cfg0.N) (p : Fin 5000) (n : Fin 50000) (hn : n.val = t.val * 5000 + p.val) :
    (iblk0 (F := Ideal) V c 2 t : Vec Ideal S5000x1 .f32) (ix2 p 0) = (V c main_v14 : S50000x1.Idx → EReal) (ix2 n 0) := by
  obtain ⟨-, -, ⟨e0, e1⟩, -⟩ := idx_facts0 t
  unfold iblk0
  rw [View.read_apply]
  show V c main_v14 _ = V c main_v14 _
  congr 1
  funext a
  apply Fin.ext
  match a with
  | ⟨0, _⟩ => show win0_2.index t (0 : Fin 2) * 5000 + 1 * p.val = n.val; rw [e0, hn]; omega
  | ⟨1, _⟩ => show win0_2.index t (1 : Fin 2) * 1 + 1 * 0 = 0; rw [e1]

/-- Tile `t` of the output sits at rows `5000 · t …` of its array: entry `(p, q)` of the tile is entry
    `(5000 · t + p, q)` of the array. -/
theorem out0_emb (t : Fin cfg0.N) (p : Fin 5000) (q : Fin 128) (n : Fin 50000) (hn : n.val = t.val * 5000 + p.val) :
    ((cfg0.win 3).blk t).view.emb (ix2 p q) = (ix2 n q : S50000x128.Idx) := by
  obtain ⟨-, -, -, ⟨e0, e1⟩⟩ := idx_facts0 t
  funext a
  apply Fin.ext
  match a with
  | ⟨0, _⟩ => show win0_3.index t (0 : Fin 2) * 5000 + 1 * p.val = n.val; rw [e0, hn]; omega
  | ⟨1, _⟩ => show win0_3.index t (1 : Fin 2) * 128 + 1 * q.val = q.val; rw [e1]; omega

/-! ## The output array -/

/-- The region's result at row `n`, column `f`, from the arrays it reads: row `n` of the features `x` times
    column `f` of the weight matrix `w`, scaled by the row's coefficient `q`. -/
def projScaled (x : S50000x128.Idx → EReal) (w : S128x128.Idx → EReal) (q : S50000x1.Idx → EReal)
    (n : Fin 50000) (f : Fin 128) : EReal :=
  (∑ k : Fin 128, x (ix2 n k) * w (ix2 k f)) * q (ix2 n 0)

/-- What the region leaves in its output array, as one function of the arrays it finds. -/
def projScaledArr : S50000x128.Idx → EReal := fun i =>
  projScaled (V c main_arg0) (V c main_arg2) (V c main_v14) (i 0) (i 1)

/-- What point `t` writes back is tile `t` of that function: the tile's arithmetic at `(p, q)`, with each
    block read where it lies in its array, is the function at row `5000 · t + p`, column `q`. -/
theorem flushed0_eq (t : Fin cfg0.N) :
    (dat0 (F := Ideal) V c).flushed 3 t = ((cfg0.win 3).blk t).view.read (Elt Ideal) (projScaledArr V c) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S128x128) zeros2,
    View.ld_unit_zero (S := S5000x1) zeros2]
  funext j
  obtain ⟨p, q, rfl⟩ : ∃ (p : Fin 5000) (q : Fin 128), j = ix2 p q := ⟨j 0, j 1, eq_ix2 j⟩
  have hlt : t.val * 5000 + p.val < 50000 := by
    have ht := t.isLt
    have hN : cfg0.N = 10 := N_0
    have hp := p.isLt
    omega
  show k0_pay1 (iblk0 V c 0 t) (iblk0 V c 1 t) (iblk0 V c 2 t) (ix2 p q)
    = projScaledArr V c (((cfg0.win 3).blk t).view.emb (ix2 p q))
  refine (pay0_apply (iblk0 V c 0 t) (iblk0 V c 1 t) (iblk0 V c 2 t) p q).trans ?_
  rw [coef0_apply V c t p ⟨_, hlt⟩ rfl, out0_emb t p q ⟨_, hlt⟩ rfl]
  show _ = (∑ k : Fin 128, _) * _
  congr 1
  exact Finset.sum_congr rfl fun k _ => by
    rw [feat0_apply V c t p k ⟨_, hlt⟩ rfl, weight0_apply V c t k q]

/-- An index of the output array lies in tile `t` iff each coordinate lies in the tile's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- The ten tiles cover the array: row `r` lies in tile `r / 5000`, and every tile is written back. -/
theorem cover0 (i : S50000x128.Idx) :
    ∃ t : Fin cfg0.N, (cfg0.win 3).flush t = true ∧ i ∈ ((cfg0.win 3).blk t).view.set := by
  have h0 : (i 0).val < 50000 := idx2_lt0 i
  have h1 : (i 1).val < 128 := idx2_lt1 i
  have hN : cfg0.N = 10 := N_0
  obtain ⟨t, ht⟩ : ∃ t : Fin cfg0.N, t.val = (i 0).val / 5000 := ⟨⟨(i 0).val / 5000, by omega⟩, rfl⟩
  obtain ⟨-, -, -, ⟨e0, e1⟩⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- So after the region its output array IS that function … -/
theorem final0 : (dat0 (F := Ideal) V c).arrAt 3 cfg0.N = projScaledArr V c :=
  (dat0 V c).arrAt_eq_of_cover 3 (projScaledArr V c) (fun t _ => flushed0_eq V c t) cover0

/-- … and, entry by entry: region 0 leaves, at row `n` and column `f`, the row's product with the weight
    matrix scaled by the row's own coefficient. -/
theorem final0_apply (n : Fin 50000) (f : Fin 128) :
    (dat0 (F := Ideal) V c).arrAt 3 cfg0.N (ix2 n f)
      = projScaled (V c main_arg0) (V c main_arg2) (V c main_v14) n f :=
  congrFun (final0 V c) (ix2 n f)

end Cert.KernelIdeal.RegionVal

end
-- ==== Proof.KernRegion1.lean ====
/-
  The middle tiled region of the kernel, in closed form.

  The region walks the 50000 node rows in ten tiles of 5000. For a tile it reads the tile's rows of the
  aggregated first-layer features `a` and of the per-row coefficient column `q`, the whole bias row `b`
  and the whole 128 × 128 weight matrix `w` of the second layer. Row `n` is first finished as a hidden
  row — scaled by its coefficient, the bias added, rectified (kept where positive, multiplied by the
  slope `c` elsewhere), and scaled by its coefficient again — and then multiplied with the weight matrix:

      ∑ k < 128, (act c (a (n, k) · q (n) + b (k)) · q (n)) · w (k, f).

  At the ideal values the comparison with the zero word is the order's `0 < v`, so the select between
  `v` and `c · v` is the rectifier cut there; the change of format in front of the matrix unit is the
  identity and the product into a zero accumulator is the plain sum over the contracted axis. The slope's
  word is carried as it is printed and never evaluated. Tile `t`'s row `p` is the array's row
  `5000 · t + p`, the bias row and the weight matrix are the same whole blocks at every tile, and the ten
  tiles cover the array: row `n` lies in tile `n / 5000`.
-/
import proofs.«143145_j42752104464516_2_alg».proof.Proof.Gen.KernelIdeal.Frame
import proofs.«143145_j42752104464516_2_alg».proof.Proof.KernBlockOps
import proofs.«143145_j42752104464516_2_alg».proof.Proof.LibPlainDot
import proofs.«143145_j42752104464516_2_alg».proof.Proof.GcnForm
import Idealize.ShloMosaic.Lib.Pipeline.Value
import Idealize.ShloMosaic.Lib.ValueIdx

set_option maxRecDepth 16384

noncomputable section

open scoped BigOperators

namespace Cert.KernelIdeal.RegionVal

open Idealize.ShloMosaic Idealize.ShloMosaic.TcCoe Idealize.ShloMosaic.ValueIdx Idealize.SL.Sem
open Idealize.ShloMosaic.Pipeline (Dat)
open Cert.KernelIdeal Cert.KernelIdeal.Gen Cert.BlockOps

/-! ## The tile's arithmetic at an entry -/

/-- The tile's matrix product contracts the left operand's columns against the right operand's rows. -/
theorem plain_dot1 : Cert.PlainDot.IsPlain dot_S5000x128_S128x128_S5000x128_1_0_0_1_n_n :=
  ⟨rfl, rfl, rfl, rfl, rfl, rfl⟩

/-- A select on "`v` is above the zero word" between `v` and `c · v` is the rectifier cut at `0 < v`: the
    zero word is the real `0`, the ordered comparison is the order's, and its bit is `1` exactly when
    `0 < v`. -/
theorem select_above_zero (c v : EReal) :
    Scalar.select (FloatOps.cmpf (F := Ideal) (φ := .f32) .ogt v (Scalar.ofBits (F := Ideal) .f32 0x00000000#32)) v (c * v)
      = Cert.Gcn.kAct c v := by
  show (if BitVec.ofBool (decide (Ideal.ofBits .f32 0x00000000#32 < v)) = 1#1 then v else c * v)
    = if 0 < v then v else c * v
  rw [Ideal.ofBits_zero_f32]
  by_cases h : (0 : EReal) < v
  · rw [if_pos h, decide_eq_true h]; exact if_pos rfl
  · rw [if_neg h, decide_eq_false h]; exact if_neg (by decide)

/-- The tile's result at entry `(p, j)`: the hidden row `p` — the feature block's row scaled by the row's
    coefficient, plus the bias, rectified, scaled again — times column `j` of the weight matrix. (The
    coefficient block is read twice by the tile's arithmetic, hence its two names here.) -/
theorem pay1_apply (x0 : Vec Ideal S5000x128 .f32) (x1 : Vec Ideal S5000x1 .f32) (x2 : Vec Ideal S1x128 .f32)
    (x1' : Vec Ideal S5000x1 .f32) (x3 : Vec Ideal S128x128 .f32) (p : Fin 5000) (j : Fin 128) :
    k1_pay1 x0 x1 x2 x1' x3 (ix2 p j)
      = ∑ k : Fin 128, (Cert.Gcn.kAct (Ideal.ofBits .f32 0x3E4CCCCD#32)
            (x0 (ix2 p k) * x1 (ix2 p 0) + x2 (ix2 0 k)) * x1' (ix2 p 0)) * x3 (ix2 k j) := by
  unfold k1_pay1
  simp only [shapeCast_self]
  refine (Ideal.matmul_constant_zero_apply _ none _ _ (ix2 p j)).trans
    ((Cert.PlainDot.sum_contr _ plain_dot1 _ _ p j).trans (Finset.sum_congr rfl fun k _ => ?_))
  simp only [truncf_apply, mulf_apply, addf_apply, select_apply, cmpf_apply, broadcast_apply,
    broadcastTo_col_apply, broadcastTo_row_apply]
  rw [select_above_zero]
  rfl

/-! ## The tiles: which rows of the arrays a tile holds -/

variable (V : (c : Dev nD) → (b : Ref sig .tc) → Buf (Elt Ideal) ((c : Thread nD τ).loc b)) (c : Dev nD)

/-- The printed index maps, decided over the ten grid points: the row-tiled windows (the features, the
    coefficient column, the output) are at block `(t, 0)` at point `t`, the bias row and the weight matrix
    at block `(0, 0)` throughout. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0) :=
  (by decide +kernel : ∀ t : Fin grid1.N, _)

/-- Tile `t` of the features: its entry `(p, k)` is the array's entry at row `5000 · t + p`, column `k`. -/
theorem feat1_apply (t : Fin cfg1.N) (p : Fin 5000) (k : Fin 128) (n : Fin 50000) (hn : n.val = t.val * 5000 + p.val) :
    (iblk1 (F := Ideal) V c 0 t : Vec Ideal S5000x128 .f32) (ix2 p k) = (V c main_v25 : S50000x128.Idx → EReal) (ix2 n k) := by
  obtain ⟨⟨e0, e1⟩, -⟩ := idx_facts1 t
  unfold iblk1
  rw [View.read_apply]
  show V c main_v25 _ = V c main_v25 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Tile `t` of the coefficient column: its entry `(p, 0)` is the coefficient of row `5000 · t + p`. -/
theorem coef1_apply (t : Fin cfg1.N) (p : Fin 5000) (n : Fin 50000) (hn : n.val = t.val * 5000 + p.val) :
    (iblk1 (F := Ideal) V c 1 t : Vec Ideal S5000x1 .f32) (ix2 p 0) = (V c main_v14 : S50000x1.Idx → EReal) (ix2 n 0) := by
  obtain ⟨-, ⟨e0, e1⟩, -⟩ := idx_facts1 t
  unfold iblk1
  rw [View.read_apply]
  show V c main_v14 _ = V c main_v14 _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 1 + 1 * 0 = 0; rw [e1]

/-- The one block of the bias row is the whole row, at every point. -/
theorem bias1_apply (t : Fin cfg1.N) (k : Fin 128) :
    (iblk1 (F := Ideal) V c 2 t : Vec Ideal S1x128 .f32) (ix2 0 k) = (V c main_v26 : S1x128.Idx → EReal) (ix2 0 k) := by
  obtain ⟨-, -, ⟨e0, e1⟩, -⟩ := idx_facts1 t
  unfold iblk1
  rw [View.read_apply]
  show V c main_v26 _ = V c main_v26 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- The one block of the weight matrix is the whole matrix, at every point. -/
theorem weight1_apply (t : Fin cfg1.N) (k j : Fin 128) :
    (iblk1 (F := Ideal) V c 3 t : Vec Ideal S128x128 .f32) (ix2 k j) = (V c main_arg4 : S128x128.Idx → EReal) (ix2 k j) := by
  obtain ⟨-, -, -, ⟨e0, e1⟩, -⟩ := idx_facts1 t
  unfold iblk1
  rw [View.read_apply]
  show V c main_arg4 _ = V c main_arg4 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- Tile `t` of the output sits at rows `5000 · t …` of its array: entry `(p, j)` of the tile is entry
    `(5000 · t + p, j)` of the array. -/
theorem out1_emb (t : Fin cfg1.N) (p : Fin 5000) (j : Fin 128) (n : Fin 50000) (hn : n.val = t.val * 5000 + p.val) :
    ((cfg1.win 4).blk t).view.emb (ix2 p j) = (ix2 n j : S50000x128.Idx) := by
  obtain ⟨-, -, -, -, ⟨e0, e1⟩⟩ := idx_facts1 t
  funext a
  apply Fin.ext
  match a with
  | ⟨0, _⟩ => show win1_4.index t (0 : Fin 2) * 5000 + 1 * p.val = n.val; rw [e0, hn]; omega
  | ⟨1, _⟩ => show win1_4.index t (1 : Fin 2) * 128 + 1 * j.val = j.val; rw [e1]; omega

/-! ## The output array -/

/-- The region's result at row `n`, column `f`, from the arrays it reads: the hidden row `n` — the features
    `a` scaled by the row's coefficient `q`, plus the bias `b`, rectified with the printed slope, scaled by
    `q` again — times column `f` of the weight matrix `w`. -/
def hiddenProj (a : S50000x128.Idx → EReal) (q : S50000x1.Idx → EReal) (b : S1x128.Idx → EReal)
    (w : S128x128.Idx → EReal) (n : Fin 50000) (f : Fin 128) : EReal :=
  ∑ k : Fin 128, (Cert.Gcn.kAct (Ideal.ofBits .f32 0x3E4CCCCD#32) (a (ix2 n k) * q (ix2 n 0) + b (ix2 0 k))
      * q (ix2 n 0)) * w (ix2 k f)

/-- What the region leaves in its output array, as one function of the arrays it finds. -/
def hiddenProjArr : S50000x128.Idx → EReal := fun i =>
  hiddenProj (V c main_v25) (V c main_v14) (V c main_v26) (V c main_arg4) (i 0) (i 1)

/-- What point `t` writes back is tile `t` of that function: the tile's arithmetic at `(p, j)`, with each
    block read where it lies in its array, is the function at row `5000 · t + p`, column `j`. -/
theorem flushed1_eq (t : Fin cfg1.N) :
    (dat1 (F := Ideal) V c).flushed 4 t = ((cfg1.win 4).blk t).view.read (Elt Ideal) (hiddenProjArr V c) := by
  show (cfg1.win 4).cut (grid1.coords t) ((dat1 V c).after 4 t) = _
  rw [after1_4]
  unfold out1_4
  rw [View.canon_unit_zero zeros2]
  simp only [View.ld_unit_zero (S := S5000x128) zeros2, View.ld_unit_zero (S := S5000x1) zeros2,
    View.ld_unit_zero (S := S1x128) zeros2, View.ld_unit_zero (S := S128x128) zeros2]
  funext y
  obtain ⟨p, j, rfl⟩ : ∃ (p : Fin 5000) (j : Fin 128), y = ix2 p j := ⟨y 0, y 1, eq_ix2 y⟩
  have hlt : t.val * 5000 + p.val < 50000 := by
    have ht := t.isLt
    have hN : cfg1.N = 10 := N_1
    have hp := p.isLt
    omega
  show k1_pay1 (iblk1 V c 0 t) (iblk1 V c 1 t) (iblk1 V c 2 t) (iblk1 V c 1 t) (iblk1 V c 3 t) (ix2 p j)
    = hiddenProjArr V c (((cfg1.win 4).blk t).view.emb (ix2 p j))
  refine (pay1_apply (iblk1 V c 0 t) (iblk1 V c 1 t) (iblk1 V c 2 t) (iblk1 V c 1 t) (iblk1 V c 3 t) p j).trans ?_
  rw [out1_emb t p j ⟨_, hlt⟩ rfl, coef1_apply V c t p ⟨_, hlt⟩ rfl]
  show (_ : EReal) = hiddenProj (V c main_v25) (V c main_v14) (V c main_v26) (V c main_arg4) ⟨t.val * 5000 + p.val, hlt⟩ j
  unfold hiddenProj
  exact Finset.sum_congr rfl fun k _ => by
    rw [feat1_apply V c t p k ⟨_, hlt⟩ rfl, bias1_apply V c t k, weight1_apply V c t k j]

/-- An index of the output array lies in tile `t` iff each coordinate lies in the tile's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- The ten tiles cover the array: row `r` lies in tile `r / 5000`, and every tile is written back. -/
theorem cover1 (i : S50000x128.Idx) :
    ∃ t : Fin cfg1.N, (cfg1.win 4).flush t = true ∧ i ∈ ((cfg1.win 4).blk t).view.set := by
  have h0 : (i 0).val < 50000 := idx2_lt0 i
  have h1 : (i 1).val < 128 := idx2_lt1 i
  have hN : cfg1.N = 10 := N_1
  obtain ⟨t, ht⟩ : ∃ t : Fin cfg1.N, t.val = (i 0).val / 5000 := ⟨⟨(i 0).val / 5000, by omega⟩, rfl⟩
  obtain ⟨-, -, -, -, ⟨e0, e1⟩⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- So after the region its output array IS that function … -/
theorem final1 : (dat1 (F := Ideal) V c).arrAt 4 cfg1.N = hiddenProjArr V c :=
  (dat1 V c).arrAt_eq_of_cover 4 (hiddenProjArr V c) (fun t _ => flushed1_eq V c t) cover1

/-- … and, entry by entry: region 1 scales by the row's coefficient, adds the bias row, rectifies (cut at
    `0 < v`, the printed slope below), scales again, then takes the product with the weight matrix. -/
theorem final1_apply (n : Fin 50000) (f : Fin 128) :
    (dat1 (F := Ideal) V c).arrAt 4 cfg1.N (ix2 n f)
      = hiddenProj (V c main_v25) (V c main_v14) (V c main_v26) (V c main_arg4) n f :=
  congrFun (final1 V c) (ix2 n f)

end Cert.KernelIdeal.RegionVal

end
-- ==== Proof.KernRegion2.lean ====
/-
  The last tiled region of the kernel, in closed form.

  The region walks the 50000 node rows in ten tiles of 5000. For a tile it reads the tile's rows of the
  aggregated features `a` and of the per-row coefficient column `q`, and three whole feature rows: a bias
  `b`, a gate `g` and a context row `β`. What it writes to row `n`, column `f` of its output is

      (a (n, f) · q (n) + b (f)) · g (f) + β (f).

  Every operation of the tile's arithmetic is pointwise once the one-column and one-row blocks are
  stretched to the tile's shape, so the tile's result at entry `(p, q)` is that expression of the blocks'
  entries; tile `t`'s row `p` is the array's row `5000 · t + p`, the three feature rows are the same whole
  block at every tile, and the ten tiles cover the array: row `n` lies in tile `n / 5000`.
-/
import proofs.«143145_j42752104464516_2_alg».proof.Proof.Gen.KernelIdeal.Frame
import proofs.«143145_j42752104464516_2_alg».proof.Proof.KernBlockOps
import Idealize.ShloMosaic.Lib.Pipeline.Value
import Idealize.ShloMosaic.Lib.ValueIdx

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat)
open Cert.KernelIdeal Cert.KernelIdeal.Gen Cert.BlockOps

/-! ## The tile's arithmetic at an entry -/

/-- The tile's result at entry `(p, q)`: scale by the row's coefficient, add the bias, multiply by the
    gate, add the context row. The same-shape casts are identities, the stretched column reads row `p`
    of the coefficient block, the stretched rows read column `q` of their blocks. -/
theorem pay2_apply (x0 : Vec Ideal S5000x128 .f32) (x1 : Vec Ideal S5000x1 .f32) (x2 x3 x4 : Vec Ideal S1x128 .f32)
    (p : Fin 5000) (q : Fin 128) :
    k2_pay1 x0 x1 x2 x3 x4 (ix2 p q)
      = (x0 (ix2 p q) * x1 (ix2 p 0) + x2 (ix2 0 q)) * x3 (ix2 0 q) + x4 (ix2 0 q) := by
  unfold k2_pay1
  simp only [shapeCast_self]
  rw [addf_apply, mulf_apply, addf_apply, mulf_apply,
    broadcastTo_col_apply, broadcastTo_row_apply, broadcastTo_row_apply, broadcastTo_row_apply]

/-! ## The tiles: which rows of the arrays a tile holds -/

variable (V : (c : Dev nD) → (b : Ref sig .tc) → Buf (Elt Ideal) ((c : Thread nD τ).loc b)) (c : Dev nD)

/-- The printed index maps, decided over the ten grid points: the row-tiled windows (the features, the
    coefficient column, the output) are at block `(t, 0)` at point `t`, the three feature rows at block
    `(0, 0)` throughout. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- Tile `t` of the features: its entry `(p, q)` is the array's entry at row `5000 · t + p`, column `q`. -/
theorem feat2_apply (t : Fin cfg2.N) (p : Fin 5000) (q : Fin 128) (n : Fin 50000) (hn : n.val = t.val * 5000 + p.val) :
    (iblk2 (F := Ideal) V c 0 t : Vec Ideal S5000x128 .f32) (ix2 p q) = (V c main_v37 : S50000x128.Idx → EReal) (ix2 n q) := by
  obtain ⟨⟨e0, e1⟩, -⟩ := idx_facts2 t
  unfold iblk2
  rw [View.read_apply]
  show V c main_v37 _ = V c main_v37 _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 128 + 1 * q.val = q.val; rw [e1]; omega

/-- Tile `t` of the coefficient column: its entry `(p, 0)` is the coefficient of row `5000 · t + p`. -/
theorem coef2_apply (t : Fin cfg2.N) (p : Fin 5000) (n : Fin 50000) (hn : n.val = t.val * 5000 + p.val) :
    (iblk2 (F := Ideal) V c 1 t : Vec Ideal S5000x1 .f32) (ix2 p 0) = (V c main_v14 : S50000x1.Idx → EReal) (ix2 n 0) := by
  obtain ⟨-, ⟨e0, e1⟩, -⟩ := idx_facts2 t
  unfold iblk2
  rw [View.read_apply]
  show V c main_v14 _ = V c main_v14 _
  congr 1
  funext a
  apply Fin.ext
  match a with
  | ⟨0, _⟩ => show win2_1.index t (0 : Fin 2) * 5000 + 1 * p.val = n.val; rw [e0, hn]; omega
  | ⟨1, _⟩ => show win2_1.index t (1 : Fin 2) * 1 + 1 * 0 = 0; rw [e1]

/-- The one block of a feature row (here the bias) is the whole row, at every point. -/
theorem bias2_apply (t : Fin cfg2.N) (q : Fin 128) :
    (iblk2 (F := Ideal) V c 2 t : Vec Ideal S1x128 .f32) (ix2 0 q) = (V c main_v48 : S1x128.Idx → EReal) (ix2 0 q) := by
  obtain ⟨-, -, ⟨e0, e1⟩, -⟩ := idx_facts2 t
  unfold iblk2
  rw [View.read_apply]
  show V c main_v48 _ = V c main_v48 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- Likewise the gate row … -/
theorem gate2_apply (t : Fin cfg2.N) (q : Fin 128) :
    (iblk2 (F := Ideal) V c 3 t : Vec Ideal S1x128 .f32) (ix2 0 q) = (V c main_v46 : S1x128.Idx → EReal) (ix2 0 q) := by
  obtain ⟨-, -, -, ⟨e0, e1⟩, -⟩ := idx_facts2 t
  unfold iblk2
  rw [View.read_apply]
  show V c main_v46 _ = V c main_v46 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- … and the context row. -/
theorem ctx2_apply (t : Fin cfg2.N) (q : Fin 128) :
    (iblk2 (F := Ideal) V c 4 t : Vec Ideal S1x128 .f32) (ix2 0 q) = (V c main_v47 : S1x128.Idx → EReal) (ix2 0 q) := by
  obtain ⟨-, -, -, -, ⟨e0, e1⟩, -⟩ := idx_facts2 t
  unfold iblk2
  rw [View.read_apply]
  show V c main_v47 _ = V c main_v47 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- Tile `t` of the output sits at rows `5000 · t …` of its array: entry `(p, q)` of the tile is entry
    `(5000 · t + p, q)` of the array. -/
theorem out2_emb (t : Fin cfg2.N) (p : Fin 5000) (q : Fin 128) (n : Fin 50000) (hn : n.val = t.val * 5000 + p.val) :
    ((cfg2.win 5).blk t).view.emb (ix2 p q) = (ix2 n q : S50000x128.Idx) := by
  obtain ⟨-, -, -, -, -, ⟨e0, e1⟩⟩ := idx_facts2 t
  funext a
  apply Fin.ext
  match a with
  | ⟨0, _⟩ => show win2_5.index t (0 : Fin 2) * 5000 + 1 * p.val = n.val; rw [e0, hn]; omega
  | ⟨1, _⟩ => show win2_5.index t (1 : Fin 2) * 128 + 1 * q.val = q.val; rw [e1]; omega

/-! ## The output array -/

/-- The region's result at row `n`, column `f`, from the arrays it reads: the features `a` scaled by the
    row's coefficient `q`, plus the bias `b`, times the gate `g`, plus the context row `β`. -/
def gatedOut (a : S50000x128.Idx → EReal) (q : S50000x1.Idx → EReal) (b g β : S1x128.Idx → EReal)
    (n : Fin 50000) (f : Fin 128) : EReal :=
  (a (ix2 n f) * q (ix2 n 0) + b (ix2 0 f)) * g (ix2 0 f) + β (ix2 0 f)

/-- What the region leaves in its output array, as one function of the arrays it finds. -/
def gatedArr : S50000x128.Idx → EReal := fun i =>
  gatedOut (V c main_v37) (V c main_v14) (V c main_v48) (V c main_v46) (V c main_v47) (i 0) (i 1)

/-- What point `t` writes back is tile `t` of that function: the tile's arithmetic at `(p, q)`, with each
    block read where it lies in its array, is the function at row `5000 · t + p`, column `q`. -/
theorem flushed2_eq (t : Fin cfg2.N) :
    (dat2 (F := Ideal) V c).flushed 5 t = ((cfg2.win 5).blk t).view.read (Elt Ideal) (gatedArr V c) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S5000x1) zeros2,
    View.ld_unit_zero (S := S1x128) zeros2]
  funext j
  obtain ⟨p, q, rfl⟩ : ∃ (p : Fin 5000) (q : Fin 128), j = ix2 p q := ⟨j 0, j 1, eq_ix2 j⟩
  have hlt : t.val * 5000 + p.val < 50000 := by
    have ht := t.isLt
    have hN : cfg2.N = 10 := N_2
    have hp := p.isLt
    omega
  show k2_pay1 (iblk2 V c 0 t) (iblk2 V c 1 t) (iblk2 V c 2 t) (iblk2 V c 3 t) (iblk2 V c 4 t) (ix2 p q)
    = gatedArr V c (((cfg2.win 5).blk t).view.emb (ix2 p q))
  refine (pay2_apply (iblk2 V c 0 t) (iblk2 V c 1 t) (iblk2 V c 2 t) (iblk2 V c 3 t) (iblk2 V c 4 t) p q).trans ?_
  rw [feat2_apply V c t p q ⟨_, hlt⟩ rfl, coef2_apply V c t p ⟨_, hlt⟩ rfl, bias2_apply V c t q, gate2_apply V c t q,
    ctx2_apply V c t q, out2_emb t p q ⟨_, hlt⟩ rfl]
  rfl

/-- An index of the output array lies in tile `t` iff each coordinate lies in the tile's range on its axis. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v49).slice (win2_5.rect t)).set ↔ _
  rw [View.set_slice_whole, Rect.mem_set_unit]
  exact Iff.rfl

/-- The ten tiles cover the array: row `r` lies in tile `r / 5000`, and every tile is written back. -/
theorem cover2 (i : S50000x128.Idx) :
    ∃ t : Fin cfg2.N, (cfg2.win 5).flush t = true ∧ i ∈ ((cfg2.win 5).blk t).view.set := by
  have h0 : (i 0).val < 50000 := idx2_lt0 i
  have h1 : (i 1).val < 128 := idx2_lt1 i
  have hN : cfg2.N = 10 := N_2
  obtain ⟨t, ht⟩ : ∃ t : Fin cfg2.N, t.val = (i 0).val / 5000 := ⟨⟨(i 0).val / 5000, by omega⟩, rfl⟩
  obtain ⟨-, -, -, -, -, ⟨e0, e1⟩⟩ := idx_facts2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 128 ≤ (i 1).val ∧ (i 1).val < win2_5.index t (1 : Fin 2) * 128 + 128
    rw [e1]; omega

/-- So after the region its output array IS that function … -/
theorem final2 : (dat2 (F := Ideal) V c).arrAt 5 cfg2.N = gatedArr V c :=
  (dat2 V c).arrAt_eq_of_cover 5 (gatedArr V c) (fun t _ => flushed2_eq V c t) (cover2)

/-- … and, entry by entry: region 2 leaves, at row `n` and column `f`, the row's features scaled by the
    row's coefficient, plus the bias, times the gate, plus the context row. -/
theorem final2_apply (n : Fin 50000) (f : Fin 128) :
    (dat2 (F := Ideal) V c).arrAt 5 cfg2.N (ix2 n f)
      = gatedOut (V c main_v37) (V c main_v14) (V c main_v48) (V c main_v46) (V c main_v47) n f :=
  congrFun (final2 V c) (ix2 n f)

end Cert.KernelIdeal.RegionVal

end
-- ==== Proof.KernValue.lean ====
/-
  The idealized kernel's result, entry by entry, as the folded arrangement of the two-layer graph convolution.

  Each region's output array is a closed form of the buffers it finds (the region modules); the buffers each region
  finds are named by walking the boundary chain (`KernChain`); between the regions sits the unweighted propagation
  `spread`, read at an entry in `KernHost`. Putting the three closed forms through the two propagations:

  * region 0's array at `(n, k)` is row `n` of `x · W1` scaled by `q n` (`Y1_apply`); propagated and scaled by `q n`
    again it is `kLayer1` (`agg1_apply`);
  * region 1's array at `(n, f)` is the contraction of the scaled hidden row `kHidden n ·` with `W2` (`Y2_apply`);
    propagated and scaled by `q n` it is `kLayer2`;
  * region 2 adds the second bias, multiplies by the gate row and adds the context row: `kOut` (`result_apply`).
-/
import proofs.«143145_j42752104464516_2_alg».proof.Proof.KernChain
import proofs.«143145_j42752104464516_2_alg».proof.Proof.KernHost
import proofs.«143145_j42752104464516_2_alg».proof.Proof.KernRegion0
import proofs.«143145_j42752104464516_2_alg».proof.Proof.KernRegion1
import proofs.«143145_j42752104464516_2_alg».proof.Proof.KernRegion2
import proofs.«143145_j42752104464516_2_alg».proof.Proof.GcnForm

set_option maxRecDepth 16384

noncomputable section

open scoped BigOperators

namespace Cert.KernelIdeal.KernValue

open Idealize.ShloMosaic Idealize.ShloMosaic.TcCoe Idealize.ShloMosaic.ValueIdx Idealize.SL.Sem
open Cert.KernelIdeal Cert.KernelIdeal.Gen Cert.KernelIdeal.KernDefs Cert.KernelIdeal.KernChain Cert.KernelIdeal.KernHost
open Cert.KernelIdeal.RegionVal

/-! ## The regions' closed forms respect equal inputs -/

theorem projScaled_congr {x x' : S50000x128.Idx → EReal} {w w' : S128x128.Idx → EReal} {q q' : S50000x1.Idx → EReal}
    (hx : x = x') (hw : w = w') (hq : q = q') (n : Fin 50000) (f : Fin 128) :
    projScaled x w q n f = projScaled x' w' q' n f := by subst hx hw hq; rfl

theorem hiddenProj_congr {a a' : S50000x128.Idx → EReal} {q q' : S50000x1.Idx → EReal} {b b' : S1x128.Idx → EReal}
    {w w' : S128x128.Idx → EReal} (ha : a = a') (hq : q = q') (hb : b = b') (hw : w = w') (n : Fin 50000) (f : Fin 128) :
    hiddenProj a q b w n f = hiddenProj a' q' b' w' n f := by subst ha hq hb hw; rfl

theorem gatedOut_congr {a a' : S50000x128.Idx → EReal} {q q' : S50000x1.Idx → EReal} {b b' g g' β β' : S1x128.Idx → EReal}
    (ha : a = a') (hq : q = q') (hb : b = b') (hg : g = g') (hβ : β = β') (n : Fin 50000) (f : Fin 128) :
    gatedOut a q b g β n f = gatedOut a' q' b' g' β' n f := by subst ha hq hb hg hβ; rfl

variable (m : (ℓ : Loc nD τ sig) → Buf (Elt Ideal) ℓ) (ρ : Dev nD → PrngReg) (c : Dev nD)

/-- The normalisation at node `n`, as the forms take it. -/
abbrev q : Fin 50000 → EReal := fun n => dinv (arg m c main_arg9) (ix1 n)
/-- The source rows' index array (negative indices wrapped), as a gather takes it. -/
abbrev sI : IVec S850000x1 32 := col (wrap (srcRaw (arg m c main_arg9)))
/-- The target rows' index array, as a scatter takes it. -/
abbrev dI : IVec S850000x1 32 := col (dstRaw (arg m c main_arg9))
/-- The node features, the weight matrices and the biases as curried functions. -/
abbrev x : Fin 50000 → Fin 128 → EReal := fun n k => arg m c main_arg0 (ix2 n k)
abbrev w1 : Fin 128 → Fin 128 → EReal := fun k f => arg m c main_arg2 (ix2 k f)
abbrev b1 : Fin 128 → EReal := fun k => arg m c main_arg3 (ix1 k)
abbrev w2 : Fin 128 → Fin 128 → EReal := fun k f => arg m c main_arg4 (ix2 k f)
abbrev b2 : Fin 128 → EReal := fun f => arg m c main_arg5 (ix1 f)
/-- The gate row and the context row. -/
abbrev g : Fin 128 → EReal := fun f => gate (arg m c main_arg1) (arg m c main_arg6) (arg m c main_arg7) (ix2 0 f)
abbrev β : Fin 128 → EReal := fun f => ctxBias (arg m c main_arg1) (arg m c main_arg8) (ix2 0 f)
/-- The rectifier's slope below zero, as the literal's value. -/
abbrev slope : EReal := Ideal.ofBits .f32 0x3E4CCCCD#32

/-- Region 0's output array at `(n, k)`: row `n` of `x · W1`, scaled by `q n`. -/
theorem Y1_apply (n : Fin 50000) (k : Fin 128) :
    Y1 m ρ c (ix2 n k) = (∑ j : Fin 128, x m c n j * w1 m c j k) * q m c n :=
  (final0_apply (V1 m ρ) c n k).trans
    ((projScaled_congr (W1_arg0 m ρ c) (W1_arg2 m ρ c) (W1_v14 m ρ c) n k).trans (by
      unfold projScaled
      rw [dinvCol_apply]))

/-- The first propagation, scaled by `q n`: layer 1 of the folded arrangement. -/
theorem agg1_apply (n : Fin 50000) (k : Fin 128) :
    spread (arg m c main_arg9) (Y1 m ρ c) (ix2 n k) * q m c n = Cert.Gcn.kLayer1 (q m c) (sI m c) (dI m c) (x m c) (w1 m c) n k := by
  rw [spread_apply]
  unfold Cert.Gcn.kLayer1
  refine congrArg (· * q m c n) (congrArg (0 + ·) (Finset.sum_congr rfl fun e _ => ?_))
  exact Y1_apply m ρ c _ _

/-- Region 1's output array at `(n, f)`: the scaled hidden row contracted with `W2`. -/
theorem Y2_apply (n : Fin 50000) (f : Fin 128) :
    Y2 m ρ c (ix2 n f)
      = ∑ k : Fin 128, Cert.Gcn.kHidden (q m c) (sI m c) (dI m c) slope (x m c) (w1 m c) (b1 m c) n k * w2 m c k f :=
  (final1_apply (V3 m ρ) c n f).trans
    ((hiddenProj_congr (W3_v25 m ρ c) (W3_v14 m ρ c) (W3_v26 m ρ c) (W3_arg4 m ρ c) n f).trans (by
      unfold hiddenProj Cert.Gcn.kHidden
      refine Finset.sum_congr rfl fun k _ => ?_
      rw [dinvCol_apply, biasRow_apply, agg1_apply m ρ c n k]))

/-- The program's result array on core `c`. -/
def result : S50000x128.Idx → EReal := W6 m ρ c (Proc.devRef .tc main_v49)

/-- THE KERNEL'S VALUE: its result at `(n, f)` is the folded arrangement's. -/
theorem result_apply (n : Fin 50000) (f : Fin 128) :
    result m ρ c (ix2 n f)
      = Cert.Gcn.kOut (q m c) (sI m c) (dI m c) slope (x m c) (w1 m c) (b1 m c) (w2 m c) (b2 m c) (g m c) (β m c) n f :=
  (congrFun (W6_v49 m ρ c) (ix2 n f)).trans ((final2_apply (V5 m ρ) c n f).trans
    ((gatedOut_congr (W5_v37 m ρ c) (W5_v14 m ρ c) (W5_v48 m ρ c) (W5_v46 m ρ c) (W5_v47 m ρ c) n f).trans (by
      unfold gatedOut Cert.Gcn.kOut Cert.Gcn.kLayer2
      rw [dinvCol_apply, biasRow_apply, spread_apply]
      refine congrArg (fun t => (t * q m c n + b2 m c f) * g m c f + β m c f)
        (congrArg (0 + ·) (Finset.sum_congr rfl fun e _ => ?_))
      exact Y2_apply m ρ c _ _)))

end Cert.KernelIdeal.KernValue

end
-- ==== Proof.RefValue.lean ====
/-
  The reference's result read at an index.

  The reference program's result is one composed function `RefDefs.out` of its argument arrays: two graph convolutions
  with a leaky rectifier between them, then a product by a gate row and a sum with a context row. This module reads it
  at an index `(n, f)` and finds the plain formula `Cert.Gcn.rOut`:

  * a convolution `conv h b` at `(n, f)` is `0 + ∑ { e : target e = n }  h (source e, f) · (q (source e) · q (target' e))  +  b f`
    (`conv_apply`): the accumulating scatter adds, onto row `n` of a zero array, the rows `e` of the updates whose
    target index reads `n`; row `e` of the updates is the gathered source row (the source index read signed and
    clamped into the array) times the edge's coefficient, and the coefficient is the product of the two gathered
    entries of the normalisation `q`;
  * the rectifier at an index is `v ↦ if 0 ≤ v then v else c · v` (`leaky_apply`): the comparison `v ≥ 0` decides
    which operand the select takes;
  * a dense projection at `(n, f)` is `∑ k, a (n, k) · w (k, f)`;
  * a row spread over all the rows reads the row itself, whatever `n`.

  Nothing here depends on what the index arrays or the normalisation contain: they stay the same opaque arrays on
  both sides of every equation.
-/
import proofs.«143145_j42752104464516_2_alg».proof.Proof.RefDefs
import proofs.«143145_j42752104464516_2_alg».proof.Proof.GcnForm
import proofs.«143145_j42752104464516_2_alg».proof.Proof.LibRowOps
import proofs.«143145_j42752104464516_2_alg».proof.Proof.LibPropagate
import proofs.«143145_j42752104464516_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal

variable [Cert.ReferenceIdeal.Facts]

/-! ## A gather of single entries of a flat array -/

/-- The dimension numbers of `x[idx]` for a flat operand `[N]` and start indices `[E, 1]`: one entry per start index,
    result `[E]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` of such a gather reads the operand at the start index `e`, read signed and clamped into `[0, N − 1]`:
    the one operand axis is collapsed (no offset), it is no batch axis, and its start is start index `(e, 0)`. -/
theorem vecGather_operandIdx {N E : Nat} (hN : 0 < N)
    (wf : GatherDims.WF ⟨1, ![N]⟩ ⟨2, ![E, 1]⟩ ⟨1, ![E]⟩ [] [0] [] [0] [] 1 ![1])
    {w : Nat} (idx : IVec ⟨2, ![E, 1]⟩ w) (e : Fin E) :
    (vecGather N E wf).operandIdx (ix1 e) idx = ix1 (Cert.Lib.RowOps.clampRow hN idx e) := by
  funext a
  obtain rfl : a = 0 := Subsingleton.elim _ _
  refine Fin.ext ?_
  show (vecGather N E wf).start (ix1 e) idx 0 + (vecGather N E wf).batchCoord (ix1 e) 0
      + (vecGather N E wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Rows and scalars spread over an array -/

/-- A scalar spread over any shape reads the scalar everywhere. -/
theorem splat_apply {α : Type} {t : Shape} (h : (⟨0, ![]⟩ : Shape).BroadcastsInDim t (![] : Fin 0 → Fin t.rank))
    (x : (⟨0, ![]⟩ : Shape).Idx → α) (i : t.Idx) :
    broadcastInDim t (![] : Fin 0 → Fin t.rank) h x i = x ix0 :=
  broadcastInDim_apply _ h _ i ix0 (fun a => a.elim0)

/-- A `[F]` array laid as the one row of `[1, F]` reads, at `(0, f)`, its entry `f`. -/
theorem asRow_apply {α : Type} {F : Nat} (hF : F ≠ 1)
    (h : (⟨1, ![F]⟩ : Shape).BroadcastsInDim ⟨2, ![1, F]⟩ (![1] : Fin 1 → Fin 2))
    (x : (⟨1, ![F]⟩ : Shape).Idx → α) (f : Fin F) :
    broadcastInDim ⟨2, ![1, F]⟩ (![1] : Fin 1 → Fin 2) h x (ix2 (0 : Fin 1) f) = x (ix1 f) :=
  broadcastInDim_apply _ h _ (ix2 (0 : Fin 1) f) (ix1 f) (fun a => match a with
    | ⟨0, _⟩ => by show f.val = if F = 1 then 0 else f.val; rw [if_neg hF])

/-- A `[1, F]` row spread over the rows of `[N, F]` reads, at `(n, f)`, the row's entry `(0, f)`: the row axis of the
    operand has extent one, so the result's row coordinate is not read. -/
theorem rowSpread_apply {α : Type} {N F : Nat} (hF : F ≠ 1)
    (h : (⟨2, ![1, F]⟩ : Shape).BroadcastsInDim ⟨2, ![N, F]⟩ (![0, 1] : Fin 2 → Fin 2))
    (x : (⟨2, ![1, F]⟩ : Shape).Idx → α) (n : Fin N) (f : Fin F) :
    broadcastInDim ⟨2, ![N, F]⟩ (![0, 1] : Fin 2 → Fin 2) h x (ix2 n f) = x (ix2 (0 : Fin 1) f) :=
  broadcastInDim_apply _ h _ (ix2 n f) (ix2 (0 : Fin 1) f) (fun a => match a with
    | ⟨0, _⟩ => by show 0 = if (1 : Nat) = 1 then 0 else n.val; rw [if_pos rfl]
    | ⟨1, _⟩ => by show f.val = if F = 1 then 0 else f.val; rw [if_neg hF])

/-! ## One convolution at an index -/

/-- The coefficient of edge `e`: the normalisation at the row its source index names times the normalisation at the
    row its target index names, both indices read as a gather reads them (signed, clamped into the array). -/
theorem norm_apply (a9 : IVec S2x800000 32) (e : Fin 850000) :
    RefDefs.norm a9 (ix1 e)
      = RefDefs.dinv a9 (ix1 (Cert.Gcn.rowOf (RefDefs.col (RefDefs.wrap (RefDefs.srcRaw a9))) e))
        * RefDefs.dinv a9 (ix1 (Cert.Gcn.rowOf (RefDefs.col (RefDefs.wrap (RefDefs.dstRaw a9))) e)) := by
  unfold RefDefs.norm
  rw [mulf_apply]
  -- a gathered entry is the operand at the index the dimension numbers compute
  show RefDefs.dinv a9 ((vecGather 50000 850000 Facts₀.gather_S50000_S850000x1_S850000_n_0_n_n_0_1_1_wf).operandIdx (ix1 e)
        (RefDefs.col (RefDefs.wrap (RefDefs.srcRaw a9))))
      * RefDefs.dinv a9 ((vecGather 50000 850000 Facts₀.gather_S50000_S850000x1_S850000_n_0_n_n_0_1_1_wf).operandIdx (ix1 e)
        (RefDefs.col (RefDefs.wrap (RefDefs.dstRaw a9)))) = _
  rw [vecGather_operandIdx (show 0 < 50000 by decide), vecGather_operandIdx (show 0 < 50000 by decide)]
  rfl

/-- ONE CONVOLUTION AT `(n, f)`, for any already projected rows `h`: the zero the scatter starts from, plus the sum over
    the edges `e` whose target index reads `n` of the source row's entry `h (source e, f)` times the edge's coefficient,
    plus the bias `b f`. -/
theorem conv_apply (a9 : IVec S2x800000 32) (h : FVec Ideal S50000x128 .f32) (b : FVec Ideal S128 .f32)
    (n : Fin 50000) (f : Fin 128) :
    RefDefs.conv a9 h b (ix2 n f)
      = (0 + ∑ e ∈ Cert.Gcn.inEdges (RefDefs.col (RefDefs.dstRaw a9)) n,
            h (ix2 (Cert.Gcn.rowOf (RefDefs.col (RefDefs.wrap (RefDefs.srcRaw a9))) e) f)
              * (RefDefs.dinv a9 (ix1 (Cert.Gcn.rowOf (RefDefs.col (RefDefs.wrap (RefDefs.srcRaw a9))) e))
                * RefDefs.dinv a9 (ix1 (Cert.Gcn.rowOf (RefDefs.col (RefDefs.wrap (RefDefs.dstRaw a9))) e))))
        + b (ix1 f) := by
  unfold RefDefs.conv
  -- the sum of the scattered array and the bias row, each read at (n, f)
  rw [addf_apply, rowSpread_apply (show (128 : Nat) ≠ 1 by decide), asRow_apply (show (128 : Nat) ≠ 1 by decide)]
  -- the gather–scale–scatter step is one propagation step, read at (n, f)
  rw [Cert.Lib.Propagate.host_hop_eq Facts₀.gather_S50000x128_S850000x1_S850000x128_1_0_n_n_0_1_1128_wf
      Facts₀.scatter_S50000x128_S850000x1_S850000x128_1_0_0_1_wf
      gather_S50000x128_S850000x1_S850000x128_1_0_n_n_0_1_1128 scatter_S50000x128_S850000x1_S850000x128_1_0_0_1 rfl rfl,
    Cert.Lib.Propagate.hop_apply (show 0 < 50000 by decide), Cert.Lib.Propagate.zeros_apply]
  refine congrArg (· + b (ix1 f)) (congrArg (0 + ·) (Finset.sum_congr rfl fun e _ => ?_))
  -- the coefficient array spread along the columns reads the edge's coefficient
  rw [Cert.Lib.Propagate.rowBroadcast_apply (show (850000 : Nat) ≠ 1 by decide), norm_apply]
  rfl

/-! ## The rectifier at an index -/

/-- The leaky rectifier at an index: `v` where `0 ≤ v`, the slope times `v` elsewhere. The comparison `v ≥ 0` is the bit
    of `0 ≤ v`, and the select takes its first operand exactly when that bit is set. -/
theorem leaky_apply (v : FVec Ideal S50000x128 .f32) (i : S50000x128.Idx) :
    RefDefs.leaky v i = Cert.Gcn.rAct (Ideal.ofBits .f32 0x3E4CCCCD#32) (v i) := by
  unfold RefDefs.leaky Cert.Gcn.rAct
  rw [select_apply, cmpf_apply, mulf_apply, Cert.Lib.Propagate.zeros_apply, splat_apply]
  show Scalar.select (BitVec.ofBool (decide ((0 : EReal) ≤ v i))) (v i) (Ideal.ofBits .f32 0x3E4CCCCD#32 * v i) = _
  by_cases h0 : (0 : EReal) ≤ v i
  · rw [if_pos h0, decide_eq_true h0]; exact select_one _ _
  · rw [if_neg h0, decide_eq_false h0]; exact select_zero _ _

/-! ## The result at an index -/

/-- The dimension numbers of the program's dense projections are those of a plain matrix product. -/
theorem plain_dot : Cert.PlainDot.IsPlain dot_S50000x128_S128x128_S50000x128_1_0_0_1_n_n := ⟨rfl, rfl, rfl, rfl, rfl, rfl⟩

/-- A HIDDEN ENTRY `(m, k)`: the rectifier of the first convolution of the projected input rows plus its bias. -/
theorem hidden_apply (a0 : FVec Ideal S50000x128 .f32) (a2 : FVec Ideal S128x128 .f32) (a3 : FVec Ideal S128 .f32)
    (a9 : IVec S2x800000 32) (m : Fin 50000) (k : Fin 128) :
    RefDefs.leaky (RefDefs.conv a9 (Host.dotGeneral dot_S50000x128_S128x128_S50000x128_1_0_0_1_n_n none a0 a2) a3) (ix2 m k)
      = Cert.Gcn.rHidden (fun n => RefDefs.dinv a9 (ix1 n))
          (RefDefs.col (RefDefs.wrap (RefDefs.srcRaw a9))) (RefDefs.col (RefDefs.dstRaw a9)) (RefDefs.col (RefDefs.wrap (RefDefs.dstRaw a9)))
          (Ideal.ofBits .f32 0x3E4CCCCD#32) (fun n k => a0 (ix2 n k)) (fun k f => a2 (ix2 k f)) (fun k => a3 (ix1 k)) m k := by
  unfold Cert.Gcn.rHidden Cert.Gcn.rLayer
  rw [leaky_apply, conv_apply]
  -- each projected source entry is its sum over the contraction index
  simp only [Cert.PlainDot.dotGeneral_apply _ plain_dot]

/-- THE REFERENCE'S RESULT AT `(n, f)` is the plain two-layer formula: the second convolution of the projected hidden
    rows, plus its bias, times the gate row's entry `f`, plus the context row's entry `f`. -/
theorem out_apply (a0 : FVec Ideal S50000x128 .f32) (a1 : FVec Ideal S1x64 .f32) (a2 : FVec Ideal S128x128 .f32) (a3 : FVec Ideal S128 .f32)
    (a4 : FVec Ideal S128x128 .f32) (a5 : FVec Ideal S128 .f32) (a6 : FVec Ideal S64x128 .f32) (a7 : FVec Ideal S128 .f32)
    (a8 : FVec Ideal S64x128 .f32) (a9 : IVec S2x800000 32) (n : Fin 50000) (f : Fin 128) :
    RefDefs.out a0 a1 a2 a3 a4 a5 a6 a7 a8 a9 (ix2 n f)
      = Cert.Gcn.rOut (fun n => RefDefs.dinv a9 (ix1 n))
          (RefDefs.col (RefDefs.wrap (RefDefs.srcRaw a9))) (RefDefs.col (RefDefs.dstRaw a9)) (RefDefs.col (RefDefs.wrap (RefDefs.dstRaw a9)))
          (Ideal.ofBits .f32 0x3E4CCCCD#32)
          (fun n k => a0 (ix2 n k)) (fun k f => a2 (ix2 k f)) (fun k => a3 (ix1 k)) (fun k f => a4 (ix2 k f)) (fun f => a5 (ix1 f))
          (fun f => RefDefs.gate a1 a6 a7 (ix2 0 f)) (fun f => RefDefs.ctxBias a1 a8 (ix2 0 f)) n f := by
  unfold RefDefs.out Cert.Gcn.rOut Cert.Gcn.rLayer
  -- the product by the gate row and the sum with the context row, each row read at (n, f); then the second convolution
  rw [addf_apply, mulf_apply, rowSpread_apply (show (128 : Nat) ≠ 1 by decide), rowSpread_apply (show (128 : Nat) ≠ 1 by decide),
    conv_apply]
  -- its rows are the projected hidden rows: each entry a sum over the contraction index of hidden entries
  simp only [Cert.PlainDot.dotGeneral_apply _ plain_dot, hidden_apply]

end Cert.ReferenceIdeal.RefValue

end
-- ==== Proof.Bridge.lean ====
/-
  The idealized kernel's result is the idealized reference's result, entry by entry, of the same argument arrays.

  The kernel's result at `(n, f)` is the folded arrangement `kOut` of the two-layer graph convolution
  (`KernValue.result_apply`), the reference's the reference arrangement `rOut` (`RefValue.out_apply`), both over the
  SAME index arrays, normalisation, gate row and context row: the two programs compute those with the same host
  operations, so the two spellings are one term (`src_eq … ctx_eq`, each by unfolding). The arrangements agree
  (`Cert.Gcn.kOut_eq_rOut`) because the normalisation is a nonnegative finite number at every node
  (`KernHost.dinv_isScale`) and every in-edge of a node has that node as the row a gather reads for its target
  (`KernHost.target_row`). No entry of the features, weights or biases needs to be finite.
-/
import proofs.«143145_j42752104464516_2_alg».proof.Proof.KernValue
import proofs.«143145_j42752104464516_2_alg».proof.Proof.RefValue
import proofs.«143145_j42752104464516_2_alg».proof.Proof.GcnLaws
import proofs.«143145_j42752104464516_2_alg».proof.Proof.Gen.ReferenceIdeal

set_option maxRecDepth 16384

noncomputable section

namespace Cert.Bridge

open Idealize.ShloMosaic Idealize.ShloMosaic.TcCoe Idealize.ShloMosaic.ValueIdx Idealize.SL.Sem
open Cert.KernelIdeal.KernChain (arg)

/-! ## The two programs' host pieces are the same terms -/

section Same

open Cert.KernelIdeal

theorem src_eq (a9 : IVec S2x800000 32) :
    Cert.ReferenceIdeal.RefDefs.col (Cert.ReferenceIdeal.RefDefs.wrap (Cert.ReferenceIdeal.RefDefs.srcRaw a9))
      = KernDefs.col (KernDefs.wrap (KernDefs.srcRaw a9)) := rfl

theorem dst_eq (a9 : IVec S2x800000 32) :
    Cert.ReferenceIdeal.RefDefs.col (Cert.ReferenceIdeal.RefDefs.dstRaw a9) = KernDefs.col (KernDefs.dstRaw a9) := rfl

theorem dstw_eq (a9 : IVec S2x800000 32) :
    Cert.ReferenceIdeal.RefDefs.col (Cert.ReferenceIdeal.RefDefs.wrap (Cert.ReferenceIdeal.RefDefs.dstRaw a9))
      = KernDefs.col (KernDefs.wrap (KernDefs.dstRaw a9)) := rfl

theorem dinv_eq (a9 : IVec S2x800000 32) : Cert.ReferenceIdeal.RefDefs.dinv a9 = KernDefs.dinv a9 := rfl

theorem gate_eq (a1 : FVec Ideal S1x64 .f32) (a6 : FVec Ideal S64x128 .f32) (a7 : FVec Ideal S128 .f32) :
    Cert.ReferenceIdeal.RefDefs.gate a1 a6 a7 = KernDefs.gate a1 a6 a7 := rfl

theorem ctx_eq (a1 : FVec Ideal S1x64 .f32) (a8 : FVec Ideal S64x128 .f32) :
    Cert.ReferenceIdeal.RefDefs.ctxBias a1 a8 = KernDefs.ctxBias a1 a8 := rfl

end Same

/-! ## The comparison -/

open Cert.KernelIdeal in
/-- The kernel's result array is the reference's result function of the kernel's argument arrays. -/
theorem result_eq (m : (ℓ : Loc nD τ sig) → Buf (Elt Ideal) ℓ) (ρ : Dev nD → PrngReg) (c : Dev nD) :
    KernValue.result m ρ c
      = Cert.ReferenceIdeal.RefDefs.out (arg m c main_arg0) (arg m c main_arg1) (arg m c main_arg2) (arg m c main_arg3)
          (arg m c main_arg4) (arg m c main_arg5) (arg m c main_arg6) (arg m c main_arg7) (arg m c main_arg8) (arg m c main_arg9) := by
  funext i
  obtain ⟨n, f, rfl⟩ : ∃ (n : Fin 50000) (f : Fin 128), i = ix2 n f := ⟨i 0, i 1, eq_ix2 i⟩
  rw [KernValue.result_apply, Cert.ReferenceIdeal.RefValue.out_apply, src_eq, dst_eq, dstw_eq, dinv_eq, gate_eq, ctx_eq]
  exact Cert.Gcn.kOut_eq_rOut _ (fun n => KernHost.dinv_isScale _ n) _ _ _ (fun e n h => KernHost.target_row _ e n h)
    _ _ _ _ _ _ _ _ n f

end Cert.Bridge

end
-- ==== Proof.lean ====
/-
  The certificate of a two-layer graph convolution with a context gate, tiled over the nodes, against its reference.

  THE TWO PROGRAMS. Both take node features `x` [50000,128], two weight matrices and biases, a context vector with
  its gate and bias weights, and an edge list; both add one self-loop per node, count the edges into each node
  (`deg`), and normalise by `q n = 1/√(max (deg n) 1)`. The reference computes, per layer, the dense projection of
  every row, gathers the source row of every edge, weights it by `q (source) · q (target)`, adds the weighted rows up onto
  the target rows and adds the bias; a leaky rectifier sits between the layers; at the end the rows are multiplied by
  the gate row and the context row is added. The kernel folds the normalisation into its three tiled regions: region 0
  scales each projected row by its own `q`, the rows are then propagated unweighted, and region 1 scales the sums by
  `q` of the target, adds the bias, rectifies, scales by `q` again and projects with the second matrix; a second
  unweighted propagation follows, and region 2 scales by `q`, adds the bias, applies the gate and adds the context row.

  WHY THEY AGREE, on the extended reals and with no finiteness assumed of any input. `q n` is a nonnegative finite
  number (the degree is a finite sum of ones), and a product by such a number distributes over every sum of extended
  reals; so it can be moved out of the sum over a node's in-edges (every one of which has that node as its target)
  and across the contraction with a weight matrix. The two rectifiers cut at `0 < v` and `0 ≤ v` and differ only in
  which branch takes `v = 0`, where both give `0`. The gate and context rows are computed by the same operations in
  both programs.

  HOW THE CLAIMS ARE MET. The frames of the word-level kernel and of the idealized kernel are the generated frame
  certificates; the reference's frame is its run (`RefRun.run`) with the result dropped; the idealization rewrote
  nothing, so `preserves` is `True`. For `algebraic`: the idealized kernel's run names its result as the last link of
  its boundary chain (`KernRun.run`), that link read entry by entry is the folded arrangement (`KernValue`, over the
  three regions' closed forms `KernRegion0/1/2` and the chain `KernChain`), the reference's result read entry by
  entry is the reference arrangement (`RefValue` over `RefDefs`), and the arrangements agree (`GcnLaws`, `Bridge`).
-/
import proofs.«143145_j42752104464516_2_alg».proof.Defs
import proofs.«143145_j42752104464516_2_alg».proof.Proof.Gen.Kernel
import proofs.«143145_j42752104464516_2_alg».proof.Proof.Gen.Kernel.Skeleton
import proofs.«143145_j42752104464516_2_alg».proof.Proof.Gen.Kernel.Launch
import proofs.«143145_j42752104464516_2_alg».proof.Proof.Gen.Kernel.Points
import proofs.«143145_j42752104464516_2_alg».proof.Proof.Gen.Kernel.Frame
import proofs.«143145_j42752104464516_2_alg».proof.Proof.Gen.KernelIdeal
import proofs.«143145_j42752104464516_2_alg».proof.Proof.Gen.KernelIdeal.Skeleton
import proofs.«143145_j42752104464516_2_alg».proof.Proof.Gen.KernelIdeal.Launch
import proofs.«143145_j42752104464516_2_alg».proof.Proof.Gen.KernelIdeal.Points
import proofs.«143145_j42752104464516_2_alg».proof.Proof.Gen.KernelIdeal.Frame
import proofs.«143145_j42752104464516_2_alg».proof.Proof.Gen.ReferenceIdeal
import proofs.«143145_j42752104464516_2_alg».proof.Proof.Gen.Pre_finite_inputs
import proofs.«143145_j42752104464516_2_alg».proof.Proof.KernRun
import proofs.«143145_j42752104464516_2_alg».proof.Proof.RefRun
import proofs.«143145_j42752104464516_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments unchanged: the generated frame certificate. -/
theorem frame_k : Cert.frame_Kernel := fun m ρ _ => Cert.Kernel.Gen.frame m ρ

/-- The same of the idealized kernel. -/
theorem frame_ki : Cert.frame_KernelIdeal := fun m ρ _ => Cert.KernelIdeal.Gen.frame m ρ

/-- The same of the idealized reference: its run, with what it says of the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both idealized programs run, and the kernel's result array — the last link of
    its boundary chain — is the reference's result function of those arguments. -/
theorem algebraic : Cert.algebraic_KernelIdeal_ReferenceIdeal := by
  intro m ρ m' ρ' _ hagree
  refine ⟨fun c => Cert.KernelIdeal.Gen.W6 m ρ c (Proc.devRef .tc Cert.KernelIdeal.main_v49),
    Cert.KernelIdeal.KernRun.run (F := Ideal) m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9⟩ := hagree c
  rw [h0, h1, h2, h3, h4, h5, h6, h7, h8, h9]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
